-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S2x128x128 : Shape := ⟨3, ![2, 128, 128]⟩
abbrev S128 : Shape := ⟨1, ![128]⟩
abbrev S2x128x64 : Shape := ⟨3, ![2, 128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S128 : S_.BroadcastsInDim S128 (![] : Fin 0 → Fin S128.rank)
  reducesTo_S128_S_d0 : S128.ReducesTo [0] S_
  bcast_S_S2x128x64 : S_.BroadcastsInDim S2x128x64 (![] : Fin 0 → Fin S2x128x64.rank)
  reducesTo_S2x128x64_S_d0_1_2 : S2x128x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S2x128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128x64 .f32 := Host.absf main_arg5
  let main_cst_6 : FVec F S_ .f32 := constant S_ .f32 0x7F800000#32
  let main_v20 : FVec F S2x128x64 .f32 := broadcastInDim S2x128x64 ![] bcast_S_S2x128x64 main_cst_6
  let main_v21 : IVec S2x128x64 1 := cmpf .olt main_v19 main_v20
  let main_c_7 : IVec S_ 1 := constantI S_ 1 1#1
  let main_v22 : IVec S_ 1 := (fun x v => Host.reduce IntOp.andi x v reducesTo_S2x128x64_S_d0_1_2 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S2x128x128 .f32) (main_arg4 : FVec F S128 .f32) (main_arg5 : FVec F S2x128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S2x128x128 .f32 := Host.absf main_arg3
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S2x128x128 : Shape := ⟨3, ![2, 128, 128]⟩
abbrev S128 : Shape := ⟨1, ![128]⟩
abbrev S2x128x64 : Shape := ⟨3, ![2, 128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S5000x128 : Shape := ⟨2, ![5000, 128]⟩
abbrev S1x128x64 : Shape := ⟨3, ![1, 128, 64]⟩
abbrev S128x64 : Shape := ⟨2, ![128, 64]⟩
abbrev S50000x64 : Shape := ⟨2, ![50000, 64]⟩
abbrev S800000x64 : Shape := ⟨2, ![800000, 64]⟩
abbrev S1x64 : Shape := ⟨2, ![1, 64]⟩
abbrev S5000x64 : Shape := ⟨2, ![5000, 64]⟩

abbrev nBuf : Space → Nat
  | .hbm => 103
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S2x128x128, .f32⟩
  | .hbm, ⟨4, _⟩ => ⟨S128, .f32⟩
  | .hbm, ⟨5, _⟩ => ⟨S2x128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S800000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000, .f32⟩
  | .hbm, ⟨50, _⟩ => ⟨S800000, .f32⟩
  | .hbm, ⟨51, _⟩ => ⟨S50000x128, .bf16⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .bf16⟩
  | .hbm, ⟨61, _⟩ => ⟨S800000x128, .f32⟩
  | .hbm, ⟨62, _⟩ => ⟨S800000x1, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S50000x128, .f32⟩
  | .hbm, ⟨75, _⟩ => ⟨S1x128x64, .f32⟩
  | .hbm, ⟨76, _⟩ => ⟨S128x64, .f32⟩
  | .hbm, ⟨77, _⟩ => ⟨S1x128x64, .f32⟩
  | .hbm, ⟨78, _⟩ => ⟨S128x64, .f32⟩
  | .hbm, ⟨79, _⟩ => ⟨S128x128, .f32⟩
  | .hbm, ⟨80, _⟩ => ⟨S50000x128, .f32⟩
  | .hbm, ⟨81, _⟩ => ⟨S50000x64, .f32⟩
  | .hbm, ⟨82, _⟩ => ⟨S50000x64, .f32⟩
  | .hbm, ⟨83, _⟩ => ⟨S50000x64, .bf16⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x64, .bf16⟩
  | .hbm, ⟨93, _⟩ => ⟨S800000x64, .f32⟩
  | .hbm, ⟨94, _⟩ => ⟨S800000x1, .f32⟩
  | .hbm, ⟨95, _⟩ => ⟨S800000x64, .f32⟩
  | .hbm, ⟨96, _⟩ => ⟨S800000x64, .f32⟩
  | .hbm, ⟨97, _⟩ => ⟨S_, .f32⟩
  | .hbm, ⟨98, _⟩ => ⟨S50000x64, .f32⟩
  | .hbm, ⟨99, _⟩ => ⟨S800000x1, .i32⟩
  | .hbm, ⟨100, _⟩ => ⟨S50000x64, .f32⟩
  | .hbm, ⟨101, _⟩ => ⟨S1x64, .f32⟩
  | .hbm, ⟨102, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_10 : Ref sig .tc := ⟨.hbm, 84, rfl⟩
abbrev main_v61 : Ref sig .tc := ⟨.hbm, 85, rfl⟩
abbrev main_v62 : Ref sig .tc := ⟨.hbm, 86, rfl⟩
abbrev main_c_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bitsLt_bf16_f32 : FTy.bits .bf16 < FTy.bits .f32
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x64_S1x128x64_0_0_0 : S2x128x64.Slices ![0, 0, 0] S1x128x64
  shapeCasts_S1x128x64_S128x64 : S1x128x64.ShapeCasts S128x64
  slices_S2x128x64_S1x128x64_1_0_0 : S2x128x64.Slices ![1, 0, 0] S1x128x64
  concatenates_S128x64_S128x64_S128x128_d1 : Shape.Concatenates [S128x64, S128x64] S128x128 1
  slices_S50000x128_S50000x64_0_0 : S50000x128.Slices ![0, 0] S50000x64
  slices_S50000x128_S50000x64_0_64 : S50000x128.Slices ![0, 64] S50000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S2x128x128 : Shape := ⟨3, ![2, 128, 128]⟩
abbrev S128 : Shape := ⟨1, ![128]⟩
abbrev S2x128x64 : Shape := ⟨3, ![2, 128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S800000x128 : Shape := ⟨2, ![800000, 128]⟩
abbrev S1x128 : Shape := ⟨2, ![1, 128]⟩
abbrev S1x128x64 : Shape := ⟨3, ![1, 128, 64]⟩
abbrev S128x64 : Shape := ⟨2, ![128, 64]⟩
abbrev S50000x64 : Shape := ⟨2, ![50000, 64]⟩
abbrev S1x64 : Shape := ⟨2, ![1, 64]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S2x128x128, .f32⟩
  | .hbm, ⟨4, _⟩ => ⟨S128, .f32⟩
  | .hbm, ⟨5, _⟩ => ⟨S2x128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S800000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000, .f32⟩
  | .hbm, ⟨50, _⟩ => ⟨S800000, .f32⟩
  | .hbm, ⟨51, _⟩ => ⟨S1x128x128, .f32⟩
  | .hbm, ⟨52, _⟩ => ⟨S128x128, .f32⟩
  | .hbm, ⟨53, _⟩ => ⟨S50000x128, .f32⟩
  | .hbm, ⟨54, _⟩ => ⟨S800000x1, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128x128, .f32⟩
  | .hbm, ⟨71, _⟩ => ⟨S128x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S1x128x64, .f32⟩
  | .hbm, ⟨81, _⟩ => ⟨S128x64, .f32⟩
  | .hbm, ⟨82, _⟩ => ⟨S50000x64, .f32⟩
  | .hbm, ⟨83, _⟩ => ⟨S800000x1, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S800000x128, .f32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S1x128x64, .f32⟩
  | .hbm, ⟨100, _⟩ => ⟨S128x64, .f32⟩
  | .hbm, ⟨101, _⟩ => ⟨S50000x64, .f32⟩
  | .hbm, ⟨102, _⟩ => ⟨S50000x64, .f32⟩
  | .hbm, ⟨103, _⟩ => ⟨S1x64, .f32⟩
  | .hbm, ⟨104, _⟩ => ⟨S50000x64, .f32⟩
  | .hbm, ⟨105, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call2_cst : Ref sig .tc := ⟨.hbm, 77, rfl⟩
abbrev main_call2_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S2x128x128_S1x128x128_0_0_0 : S2x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S2x128x128_S1x128x128_1_0_0 : S2x128x128.Slices ![1, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x64_S1x128x64_0_0_0 : S2x128x64.Slices ![0, 0, 0] S1x128x64
  shapeCasts_S1x128x64_S128x64 : S1x128x64.ShapeCasts S128x64
  slices_S2x128x64_S1x128x64_1_0_0 : S2x128x64.Slices ![1, 0, 0] S1x128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel program's run with its result array named.

  Every weakly fair execution of the program from any memory terminates without a fault; in the final state the result
  buffer holds what the fold of the program's host stretches and its three regions' write-backs leaves there
  (the contents `W10 m ρ c` at the result's reference), and the seven argument arrays are as launched.
-/
import proofs.«137467_j84954453114994_2_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_out : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.KVal

end
-- ==== Proof.LibGatherRows.lean ====
/-
  A gather of whole rows of a matrix, and of entries of a vector, by one index per row of an [M, 1] index array,
  read at an index.

  ROWS: operand [N, C], indices [M, 1], result [M, C]: entry (e, j) is the operand at (clamp (idx e), j).
  ENTRIES: operand [N], the same indices, result [M]: entry e is the operand at clamp (idx e).
  In both the index word is read signed and clamped into [0, N − 1] (a negative word to 0), the same clamp for the
  two layouts: a row gathered from a matrix and an entry gathered from a vector by one index array come from one row.
-/
import Idealize.ShloMosaic.Lib.ValueIdx

namespace Cert.Lib

open Idealize.ShloMosaic Idealize.ShloMosaic.ValueIdx

variable {N M C w : Nat} {α : Type}

/-- The row the index word of entry `e` names, read signed and clamped into the operand. -/
def clampRow (N : Nat) (hN : 0 < N) (idx : IVec ⟨2, ![M, 1]⟩ w) (e : Fin M) : Fin N :=
  ⟨min (idx (ix2 e (0 : Fin 1))).toInt.toNat (N - 1), by omega⟩

/-- A word that is a row number, read signed, clamps to that row. -/
theorem clampRow_of_toInt (hN : 0 < N) (idx : IVec ⟨2, ![M, 1]⟩ w) (e : Fin M) (p : Fin N)
    (h : (idx (ix2 e (0 : Fin 1))).toInt = (p.val : Int)) : clampRow N hN idx e = p := by
  apply Fin.ext
  show min (idx (ix2 e (0 : Fin 1))).toInt.toNat (N - 1) = p.val
  rw [h, Int.toNat_natCast]
  have := p.isLt
  omega

/-- The clamped row depends only on the index words. -/
theorem clampRow_congr (hN : 0 < N) (idx idx' : IVec ⟨2, ![M, 1]⟩ w) (e : Fin M)
    (h : idx (ix2 e (0 : Fin 1)) = idx' (ix2 e (0 : Fin 1))) : clampRow N hN idx e = clampRow N hN idx' e := by
  apply Fin.ext
  show min (idx (ix2 e (0 : Fin 1))).toInt.toNat (N - 1) = min (idx' (ix2 e (0 : Fin 1))).toInt.toNat (N - 1)
  rw [h]

/-- The dimension numbers of a gather of whole rows, as a record over given sizes. -/
abbrev rowDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem rowDims_gather_apply (hN : 0 < N) (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowDims N M C wf) x idx (ix2 e j) = x (ix2 (clampRow N hN idx e) j) := by
  unfold Host.gather
  congr 1
  funext a
  refine Fin.ext ?_
  match a with
  | ⟨0, _⟩ =>
    show (rowDims N M C wf).start (ix2 e j) idx 0 + (rowDims N M C wf).batchCoord (ix2 e j) 0 + (rowDims N M C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M C wf).startIndexMap from List.mem_singleton.mpr rfl)]
    have hsi : (rowDims N M C wf).siIdx (ix2 e j) ⟨List.idxOf (0 : Fin 2) (rowDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N M C wf).start (ix2 e j) idx 1 + (rowDims N M C wf).batchCoord (ix2 e j) 1 + (rowDims N M C wf).offCoord (ix2 e j) 1 = j.val
    rw [GatherDims.batchCoord_eq_zero _ _ _ List.not_mem_nil]
    unfold GatherDims.start GatherDims.offCoord
    rw [dif_neg (show ¬ (1 : Fin 2) ∈ (rowDims N M C wf).startIndexMap from (by decide : ¬ (1 : Fin 2) ∈ ([0] : List (Fin 2)))),
      dif_pos (show (1 : Fin 2) ∈ (rowDims N M C wf).sKept from
        (by decide : (1 : Fin 2) ∈ (List.finRange 2).filter (· ∉ (([0] : List (Fin 2)) ++ []))))]
    simp only [Nat.zero_add, Nat.add_zero]
    rfl

theorem vecDims_gather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN idx e)) := by
  unfold Host.gather
  congr 1
  funext a
  refine Fin.ext ?_
  match a with
  | ⟨0, _⟩ =>
    show (vecDims N M wf).start (ix1 e) idx 0 + (vecDims N M wf).batchCoord (ix1 e) 0 + (vecDims N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N M wf).startIndexMap from List.mem_singleton.mpr rfl)]
    have hsi : (vecDims N M wf).siIdx (ix1 e) ⟨List.idxOf (0 : Fin 1) (vecDims N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The dimension numbers of a gather of whole rows. -/
structure IsRowGather (d : GatherDims ⟨2, ![N, C]⟩ ⟨2, ![M, 1]⟩ ⟨2, ![M, C]⟩) : Prop where
  od : d.offsetDims = [1]
  cs : d.collapsedSliceDims = [0]
  ob : d.operandBatchingDims = []
  sb : d.startIndicesBatchingDims = []
  sm : d.startIndexMap = [0]
  iv : d.indexVectorDim = 1
  ss : d.sliceSizes = ![1, C]

/-- The dimension numbers of a gather of entries of a vector. -/
structure IsVecGather (d : GatherDims ⟨1, ![N]⟩ ⟨2, ![M, 1]⟩ ⟨1, ![M]⟩) : Prop where
  od : d.offsetDims = []
  cs : d.collapsedSliceDims = [0]
  ob : d.operandBatchingDims = []
  sb : d.startIndicesBatchingDims = []
  sm : d.startIndexMap = [0]
  iv : d.indexVectorDim = 1
  ss : d.sliceSizes = ![1]

/-- A gather of rows read at (e, j): the operand at (the clamped row idx e, j). -/
theorem row_gather_apply (hN : 0 < N) (d : GatherDims ⟨2, ![N, C]⟩ ⟨2, ![M, 1]⟩ ⟨2, ![M, C]⟩) (hd : IsRowGather d)
    (x : (⟨2, ![N, C]⟩ : Shape).Idx → α) (idx : IVec ⟨2, ![M, 1]⟩ w) (e : Fin M) (j : Fin C) :
    Host.gather d x idx (ix2 e j) = x (ix2 (clampRow N hN idx e) j) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact rowDims_gather_apply hN wf x idx e j

/-- A gather of entries read at e: the operand at the clamped index idx e. -/
theorem vec_gather_apply (hN : 0 < N) (d : GatherDims ⟨1, ![N]⟩ ⟨2, ![M, 1]⟩ ⟨1, ![M]⟩) (hd : IsVecGather d)
    (x : (⟨1, ![N]⟩ : Shape).Idx → α) (idx : IVec ⟨2, ![M, 1]⟩ w) (e : Fin M) :
    Host.gather d x idx (ix1 e) = x (ix1 (clampRow N hN idx e)) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact vecDims_gather_apply hN wf x idx e

end Cert.Lib
-- ==== Proof.LibScatterAddReindex.lean ====
/-
  The accumulating scatter on the extended reals, read at an index and carried across a re-indexing of the updates.

  At the ideal instance the host's scatter with an `add` body gives, at operand index `i`, the operand's element plus
  the sum of the update elements whose result index is `i` (start index plus window coordinate on every axis, when that
  is inside the operand). Two such scatters over ONE index array, with different layouts of operand and updates (for
  instance one the transpose of the other), agree at a pair of operand indices `i`, `i'` as soon as the operands agree
  there and a bijection of the update indices carries the updates landing on `i` onto the updates landing on `i'`, with
  equal update elements: the two sums are one sum, re-indexed.
-/
import Idealize.ShloMosaic.PureOps.Ideal
import Idealize.ShloMosaic.PureOps.Contract

namespace Cert.Lib

open Idealize.ShloMosaic

variable {w : Nat} {s si u : Shape}

/-- An update index lands at `i` exactly when its start plus window coordinate is, on every operand axis, the
    coordinate of `i`. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have hv : (d.start j idx a + (d.window j a : Int)).toNat = (i a).val := congrArg Fin.val e'
      rw [← hv]; exact (Int.toNat_of_nonneg (h a).1).symm
    · intro e
      congr 1
      funext a
      apply Fin.ext
      show (d.start j idx a + (d.window j a : Int)).toNat = (i a).val
      rw [e a]; exact Int.toNat_natCast _
  · next h =>
    constructor
    · intro e; cases e
    · intro e
      exact absurd (fun a => by rw [e a]; exact ⟨Int.natCast_nonneg _, by exact_mod_cast (i a).isLt⟩) h

/-- The host's accumulating scatter at the ideal instance is the exact sum. -/
theorem hostScatterAdd_ideal {φ : FTy} (d : ScatterDims s si u) (x : FVec Ideal s φ) (idx : IVec si w) (upd : FVec Ideal u φ) :
    Host.scatterAdd (F := Ideal) d x idx upd = Ideal.hostScatterAdd d x idx upd := rfl

/-- TWO LAYOUTS OF ONE ACCUMULATION. Operands that agree at `i` / `i'`, and a bijection `e` of the update indices under
    which landing on `i` is landing on `i'` and the update elements correspond: the two scatters agree at `i` / `i'`. -/
theorem hostScatterAdd_reindex {s' u' : Shape} (d : ScatterDims s si u) (d' : ScatterDims s' si u')
    (x : s.Idx → EReal) (x' : s'.Idx → EReal) (idx : IVec si w) (upd : u.Idx → EReal) (upd' : u'.Idx → EReal)
    (e : u.Idx ≃ u'.Idx) (i : s.Idx) (i' : s'.Idx)
    (hx : x i = x' i') (hupd : ∀ j, upd j = upd' (e j))
    (hres : ∀ j, d.resultIdx? j idx = some i ↔ d'.resultIdx? (e j) idx = some i') :
    Ideal.hostScatterAdd d x idx upd i = Ideal.hostScatterAdd d' x' idx upd' i' := by
  unfold Ideal.hostScatterAdd
  rw [hx]
  congr 1
  exact Finset.sum_equiv e
    (fun j => by simp only [Finset.mem_filter, Finset.mem_univ, true_and]; exact hres j) (fun j _ => hupd j)

end Cert.Lib
-- ==== Proof.LibScatterRowsCols.lean ====
/-
  Where an update lands, for the two layouts of a scatter along one axis of a matrix.

  ROWS: operand [N, C], M scalar indices given as an [M, 1] array, updates [M, C]: update (r, c) lands at (idx r, c).
  COLUMNS: operand [C, N], the same indices, updates [C, M]: update (c, r) lands at (c, idx r).
  In both the index word is read signed and is not clamped: an update whose index is negative or at least N is dropped.
  So the accumulating scatter by rows, read at (p, c), and by columns, read at (c, p), of updates that are transposes
  of each other onto operands that agree there, are the same number on the extended reals.
-/
import Idealize.ShloMosaic.Lib.ValueIdx
import proofs.«137467_j84954453114994_2_alg».proof.Proof.LibScatterAddReindex

namespace Cert.Lib

open Idealize.ShloMosaic Idealize.ShloMosaic.ValueIdx

variable {N M C w : Nat}

/-- The dimension numbers of a scatter of whole rows: the update's axis 1 is the window, the operand's axis 0 is
    inserted and is the one the index names, the index vector lies along axis 1 of the index array. -/
structure IsRowScatter (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

/-- The dimension numbers of a scatter of whole columns: the update's axis 0 is the window, the operand's axis 1 is
    inserted and is the one the index names. -/
structure IsColScatter (d : ScatterDims ⟨2, ![C, N]⟩ ⟨2, ![M, 1]⟩ ⟨2, ![C, M]⟩) : Prop where
  uw : d.updateWindowDims = [0]
  iw : d.insertedWindowDims = [1]
  sd : d.scatterDimsToOperandDims = [1]
  iv : d.indexVectorDim = 1

private theorem mem00 : (0 : Fin 2) ∈ ([0] : List (Fin 2)) := by decide
private theorem mem10 : (1 : Fin 2) ∉ ([0] : List (Fin 2)) := by decide
private theorem mem11 : (1 : Fin 2) ∈ ([1] : List (Fin 2)) := by decide
private theorem mem01 : (0 : Fin 2) ∉ ([1] : List (Fin 2)) := by decide
private theorem kept0_1 : (1 : Fin 2) ∈ (List.finRange 2).filter (· ∉ ([0] : List (Fin 2))) := by decide
private theorem kept0_0 : (0 : Fin 2) ∉ (List.finRange 2).filter (· ∉ ([0] : List (Fin 2))) := by decide
private theorem kept1_0 : (0 : Fin 2) ∈ (List.finRange 2).filter (· ∉ ([1] : List (Fin 2))) := by decide
private theorem kept1_1 : (1 : Fin 2) ∉ (List.finRange 2).filter (· ∉ ([1] : List (Fin 2))) := by decide

/-- On the axis the index names, the window starts at the index word of the update's row, read signed. -/
theorem row_start_scat (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem00 ha

/-- On the other axis it starts at zero. -/
theorem row_start_win (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 1 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem10
  · rfl

/-- The window has no extent along the axis the index names. -/
theorem row_window_scat (d : ScatterDims ⟨2, ![N, C]⟩ ⟨2, ![M, 1]⟩ ⟨2, ![M, C]⟩) (hd : IsRowScatter d)
    (j : (⟨2, ![M, C]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept0_0
  · rfl

/-- Along the other axis the window coordinate is the update's. -/
theorem row_window_win (d : ScatterDims ⟨2, ![N, C]⟩ ⟨2, ![M, 1]⟩ ⟨2, ![M, C]⟩) (hd : IsRowScatter d)
    (j : (⟨2, ![M, C]⟩ : Shape).Idx) : d.window j 1 = (j 1).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept0_1 ha

/-- Update (r, c) of a row scatter lands at (idx r, c). -/
theorem row_resultIdx? (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) (i : (⟨2, ![N, C]⟩ : Shape).Idx) :
    d.resultIdx? j idx = some i ↔
      (idx (ix2 (j 0) (0 : Fin 1))).toInt = ((i 0).val : Int) ∧ (j 1).val = (i 1).val := by
  rw [resultIdx?_eq_some_iff]
  constructor
  · intro H
    have Ha := H 0
    have Hb := H 1
    rw [row_start_scat d hd, row_window_scat d hd] at Ha
    rw [row_start_win d hd, row_window_win d hd] at Hb
    exact ⟨by simpa using Ha, by exact_mod_cast (by simpa using Hb : ((j 1).val : Int) = ((i 1).val : Int))⟩
  · rintro ⟨Ha, Hb⟩ x
    have ea : d.start j idx 0 + (d.window j 0 : Int) = ((i 0).val : Int) := by
      rw [row_start_scat d hd, row_window_scat d hd, Ha]; simp
    have eb : d.start j idx 1 + (d.window j 1 : Int) = ((i 1).val : Int) := by
      rw [row_start_win d hd, row_window_win d hd, Hb]; simp
    match x with
    | ⟨0, _⟩ => exact ea
    | ⟨1, _⟩ => exact eb

/-- On the axis the index names, the window starts at the index word of the update's column, read signed. -/
theorem col_start_scat (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 1 = (idx (ix2 (j 1) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem11 ha

/-- On the other axis it starts at zero. -/
theorem col_start_win (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 0 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem01
  · rfl

/-- The window has no extent along the axis the index names. -/
theorem col_window_scat (d : ScatterDims ⟨2, ![C, N]⟩ ⟨2, ![M, 1]⟩ ⟨2, ![C, M]⟩) (hd : IsColScatter d)
    (j : (⟨2, ![C, M]⟩ : Shape).Idx) : d.window j 1 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept1_1
  · rfl

/-- Along the other axis the window coordinate is the update's. -/
theorem col_window_win (d : ScatterDims ⟨2, ![C, N]⟩ ⟨2, ![M, 1]⟩ ⟨2, ![C, M]⟩) (hd : IsColScatter d)
    (j : (⟨2, ![C, M]⟩ : Shape).Idx) : d.window j 0 = (j 0).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept1_0 ha

/-- Update (c, r) of a column scatter lands at (c, idx r). -/
theorem col_resultIdx? (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) (i : (⟨2, ![C, N]⟩ : Shape).Idx) :
    d.resultIdx? j idx = some i ↔
      (idx (ix2 (j 1) (0 : Fin 1))).toInt = ((i 1).val : Int) ∧ (j 0).val = (i 0).val := by
  rw [resultIdx?_eq_some_iff]
  constructor
  · intro H
    have Ha := H 1
    have Hb := H 0
    rw [col_start_scat d hd, col_window_scat d hd] at Ha
    rw [col_start_win d hd, col_window_win d hd] at Hb
    exact ⟨by simpa using Ha, by exact_mod_cast (by simpa using Hb : ((j 0).val : Int) = ((i 0).val : Int))⟩
  · rintro ⟨Ha, Hb⟩ x
    have ea : d.start j idx 1 + (d.window j 1 : Int) = ((i 1).val : Int) := by
      rw [col_start_scat d hd, col_window_scat d hd, Ha]; simp
    have eb : d.start j idx 0 + (d.window j 0 : Int) = ((i 0).val : Int) := by
      rw [col_start_win d hd, col_window_win d hd, Hb]; simp
    match x with
    | ⟨1, _⟩ => exact ea
    | ⟨0, _⟩ => exact eb

/-- The transposition of update indices, [A, B] ↔ [B, A]. -/
def swapIdx (A B : Nat) : (⟨2, ![A, B]⟩ : Shape).Idx ≃ (⟨2, ![B, A]⟩ : Shape).Idx where
  toFun j := ix2 (j 1) (j 0)
  invFun j := ix2 (j 1) (j 0)
  left_inv j := (eq_ix2 j).symm
  right_inv j := (eq_ix2 j).symm

/-- ROWS AGAINST COLUMNS: the accumulating scatter of the rows `upd` read at (p, c) is the accumulating scatter of the
    columns `upd'` read at (c, p), the updates transposes of each other and the operands equal there. -/
theorem scatterAdd_rows_eq_cols (d : ScatterDims ⟨2, ![N, C]⟩ ⟨2, ![M, 1]⟩ ⟨2, ![M, C]⟩) (hd : IsRowScatter d)
    (d' : ScatterDims ⟨2, ![C, N]⟩ ⟨2, ![M, 1]⟩ ⟨2, ![C, M]⟩) (hd' : IsColScatter d')
    (x : (⟨2, ![N, C]⟩ : Shape).Idx → EReal) (x' : (⟨2, ![C, N]⟩ : Shape).Idx → EReal) (idx : IVec ⟨2, ![M, 1]⟩ w)
    (upd : (⟨2, ![M, C]⟩ : Shape).Idx → EReal) (upd' : (⟨2, ![C, M]⟩ : Shape).Idx → EReal)
    (p : Fin N) (c : Fin C) (hx : x (ix2 p c) = x' (ix2 c p))
    (hupd : ∀ (r : Fin M) (c : Fin C), upd (ix2 r c) = upd' (ix2 c r)) :
    Ideal.hostScatterAdd d x idx upd (ix2 p c) = Ideal.hostScatterAdd d' x' idx upd' (ix2 c p) := by
  refine hostScatterAdd_reindex d d' x x' idx upd upd' (swapIdx M C) (ix2 p c) (ix2 c p) hx ?_ ?_
  · intro j
    rw [eq_ix2 j]
    exact hupd (j 0) (j 1)
  · intro j
    rw [row_resultIdx? d hd, col_resultIdx? d' hd']
    exact Iff.rfl

end Cert.Lib
-- ==== Proof.LibScatterVec.lean ====
/-
  Where an update lands, for a scatter of scalars into a vector.

  Operand [N], M scalar indices given as an [M, 1] array, updates [M]: update r lands at idx r. The index word is read
  signed and is not clamped: an update whose index is negative or at least N is dropped.
-/
import Idealize.ShloMosaic.Lib.ValueIdx
import proofs.«137467_j84954453114994_2_alg».proof.Proof.LibScatterAddReindex

namespace Cert.Lib

open Idealize.ShloMosaic Idealize.ShloMosaic.ValueIdx

variable {N M w : Nat}

/-- The dimension numbers of a scatter of scalars into a vector: no window axis in the updates, the operand's one axis
    inserted and named by the index, the index vector along axis 1 of the index array. -/
structure IsVecScatter (d : ScatterDims ⟨1, ![N]⟩ ⟨2, ![M, 1]⟩ ⟨1, ![M]⟩) : Prop where
  uw : d.updateWindowDims = []
  iw : d.insertedWindowDims = [0]
  sd : d.scatterDimsToOperandDims = [0]
  iv : d.indexVectorDim = 1

private theorem vmem00 : (0 : Fin 1) ∈ ([0] : List (Fin 1)) := by decide
private theorem vkept0 : (0 : Fin 1) ∉ (List.finRange 1).filter (· ∉ ([0] : List (Fin 1))) := by decide

/-- The window starts at the index word of the update, read signed. -/
theorem vec_start (d : ScatterDims ⟨1, ![N]⟩ ⟨2, ![M, 1]⟩ ⟨1, ![M]⟩) (hd : IsVecScatter d)
    (j : (⟨1, ![M]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd vmem00 ha

/-- The window has no extent. -/
theorem vec_window (d : ScatterDims ⟨1, ![N]⟩ ⟨2, ![M, 1]⟩ ⟨1, ![M]⟩) (hd : IsVecScatter d)
    (j : (⟨1, ![M]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha vkept0
  · rfl

/-- Update r of a scatter of scalars lands at idx r. -/
theorem vec_resultIdx? (d : ScatterDims ⟨1, ![N]⟩ ⟨2, ![M, 1]⟩ ⟨1, ![M]⟩) (hd : IsVecScatter d)
    (j : (⟨1, ![M]⟩ : Shape).Idx) (idx : IVec ⟨2, ![M, 1]⟩ w) (i : (⟨1, ![N]⟩ : Shape).Idx) :
    d.resultIdx? j idx = some i ↔ (idx (ix2 (j 0) (0 : Fin 1))).toInt = ((i 0).val : Int) := by
  rw [resultIdx?_eq_some_iff]
  constructor
  · intro H
    have Ha := H 0
    rw [vec_start d hd, vec_window d hd] at Ha
    simpa using Ha
  · intro Ha x
    have ea : d.start j idx 0 + (d.window j 0 : Int) = ((i 0).val : Int) := by
      rw [vec_start d hd, vec_window d hd, Ha]; simp
    match x with
    | ⟨0, _⟩ => exact ea

end Cert.Lib
-- ==== Proof.LibScatterSum.lean ====
/-
  The accumulating scatter of whole rows, and of scalars into a vector, read at an entry as a sum over the update rows.

  For an index array with one index per update row, the entry (p, q) of a row scatter-add is the operand's entry plus
  the sum, over the update rows whose index word read signed is p, of the update's entry in column q; the entry p of a
  scatter-add of scalars is the operand's entry plus the sum of the updates whose index word is p. Rows whose index is
  negative or past the operand's last row match no p and contribute nothing.
-/
import proofs.«137467_j84954453114994_2_alg».proof.Proof.LibScatterRowsCols
import proofs.«137467_j84954453114994_2_alg».proof.Proof.LibScatterVec

namespace Cert.Lib

open Idealize.ShloMosaic Idealize.ShloMosaic.ValueIdx Finset

variable {N M C w : Nat}

/-- The row and the column of an entry of an [M, C] array, as numbers below M and C. -/
def rowOf (j : (⟨2, ![M, C]⟩ : Shape).Idx) : Fin M := j 0
def colOf (j : (⟨2, ![M, C]⟩ : Shape).Idx) : Fin C := j 1
/-- The position of an entry of an [M] array, as a number below M. -/
def posOf (j : (⟨1, ![M]⟩ : Shape).Idx) : Fin M := j 0

/-- A sum over the entries of an [M, C] array that lie in column q and whose row satisfies P is the sum over those rows. -/
theorem sum_rows_filter {A : Type*} [AddCommMonoid A] (P : Fin M → Prop) [DecidablePred P] (q : Fin C)
    (f : (⟨2, ![M, C]⟩ : Shape).Idx → A) :
    ∑ j ∈ univ.filter (fun j : (⟨2, ![M, C]⟩ : Shape).Idx => P (rowOf j) ∧ (colOf j).val = q.val), f j
      = ∑ r ∈ univ.filter P, f (ix2 r q) := by
  symm
  refine Finset.sum_bij' (fun r _ => ix2 r q) (fun j _ => rowOf j) ?_ ?_ ?_ ?_ ?_
  · intro r hr
    simp only [mem_filter, mem_univ, true_and] at hr ⊢
    exact ⟨hr, rfl⟩
  · intro j hj
    simp only [mem_filter, mem_univ, true_and] at hj ⊢
    exact hj.1
  · intro r _; rfl
  · intro j hj
    simp only [mem_filter, mem_univ, true_and] at hj
    have e : colOf j = q := Fin.ext hj.2
    rw [← e]
    exact (eq_ix2 j).symm
  · intro r _; rfl

/-- A sum over the entries of an [M] array whose position satisfies P is the sum over those positions. -/
theorem sum_entries_filter {A : Type*} [AddCommMonoid A] (P : Fin M → Prop) [DecidablePred P]
    (f : (⟨1, ![M]⟩ : Shape).Idx → A) :
    ∑ j ∈ univ.filter (fun j : (⟨1, ![M]⟩ : Shape).Idx => P (posOf j)), f j = ∑ r ∈ univ.filter P, f (ix1 r) := by
  symm
  refine Finset.sum_bij' (fun r _ => ix1 r) (fun j _ => posOf j) ?_ ?_ ?_ ?_ ?_
  · intro r hr
    simp only [mem_filter, mem_univ, true_and] at hr ⊢
    exact hr
  · intro j hj
    simp only [mem_filter, mem_univ, true_and] at hj ⊢
    exact hj
  · intro r _; rfl
  · intro j _; exact (eq_ix1 j).symm
  · intro r _; rfl

/-- A row scatter-add at the ideal instance, read at (p, q). -/
theorem rowScatterAdd_apply {φ : FTy} (d : ScatterDims ⟨2, ![N, C]⟩ ⟨2, ![M, 1]⟩ ⟨2, ![M, C]⟩) (hd : IsRowScatter d)
    (x : FVec Ideal ⟨2, ![N, C]⟩ φ) (idx : IVec ⟨2, ![M, 1]⟩ w) (upd : FVec Ideal ⟨2, ![M, C]⟩ φ) (p : Fin N) (q : Fin C) :
    Host.scatterAdd (F := Ideal) d x idx upd (ix2 p q)
      = x (ix2 p q) + ∑ r ∈ univ.filter (fun r : Fin M => (idx (ix2 r (0 : Fin 1))).toInt = (p.val : Int)), upd (ix2 r q) := by
  rw [hostScatterAdd_ideal]
  unfold Ideal.hostScatterAdd
  congr 1
  rw [← sum_rows_filter (fun r : Fin M => (idx (ix2 r (0 : Fin 1))).toInt = (p.val : Int)) q upd]
  refine Finset.sum_congr ?_ (fun _ _ => rfl)
  ext j
  simp only [mem_filter, mem_univ, true_and]
  exact row_resultIdx? d hd j idx (ix2 p q)

/-- A scatter-add of scalars into a vector at the ideal instance, read at p. -/
theorem vecScatterAdd_apply {φ : FTy} (d : ScatterDims ⟨1, ![N]⟩ ⟨2, ![M, 1]⟩ ⟨1, ![M]⟩) (hd : IsVecScatter d)
    (x : FVec Ideal ⟨1, ![N]⟩ φ) (idx : IVec ⟨2, ![M, 1]⟩ w) (upd : FVec Ideal ⟨1, ![M]⟩ φ) (p : Fin N) :
    Host.scatterAdd (F := Ideal) d x idx upd (ix1 p)
      = x (ix1 p) + ∑ r ∈ univ.filter (fun r : Fin M => (idx (ix2 r (0 : Fin 1))).toInt = (p.val : Int)), upd (ix1 r) := by
  rw [hostScatterAdd_ideal]
  unfold Ideal.hostScatterAdd
  congr 1
  rw [← sum_entries_filter (fun r : Fin M => (idx (ix2 r (0 : Fin 1))).toInt = (p.val : Int)) upd]
  refine Finset.sum_congr ?_ (fun _ _ => rfl)
  ext j
  simp only [mem_filter, mem_univ, true_and]
  exact vec_resultIdx? d hd j idx (ix1 p)

end Cert.Lib
-- ==== Proof.LibColInDim.lean ====
/-
  Two host broadcasts around a unit column, read at an entry: a vector stood up as one column
  (`broadcast_in_dim` with dims [0], [a] to [a, 1]) and one column stretched over b columns (dims [0, 1], [a, 1] to [a, b]).
-/
import Idealize.ShloMosaic.Lib.Pipeline.Value
import Idealize.ShloMosaic.Lib.ValueIdx

namespace Cert.LibColInDim

open Idealize.ShloMosaic Idealize.ShloMosaic.ValueIdx

variable {α : Type}

/-- An [a] array broadcast to [a, 1] along dims [0] reads, at (p, u), the operand at p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An [a, 1] array broadcast to [a, b] along dims [0, 1] reads, at (p, q), the operand's one column at row p. -/
theorem bcast_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColInDim
-- ==== Proof.LibHostRead.lean ====
/-
  Two host idioms read at an index, at the ideal instance.

  `splat_at`     a scalar float constant broadcast to any shape (`broadcast_in_dim` with no dimensions), read at
                 an index: the extended real the constant's word denotes, whatever the index;
  `hostDivf_at`  the host's quotient of two arrays, read at an index: the quotient of the two entries.

  Both keep a later unification from having to open a constant's word or a broadcast: after rewriting with
  them a goal mentions the word and the two entries, nothing else.
-/
import Idealize.ShloMosaic.PureOps.Ideal.Laws
import Idealize.ShloMosaic.Lib.ValueIdx
import Idealize.ShloMosaic.Lib.Pipeline.Value

noncomputable section

namespace Idealize.ShloMosaic.HostRead

open Idealize.ShloMosaic Idealize.ShloMosaic.ValueIdx

/-- A constant splat to any shape, read at an index: the constant's word. -/
theorem splat_at {t : Shape} (h : (⟨0, ![]⟩ : Shape).BroadcastsInDim t ![]) (w : BitVec 32) (j : t.Idx) :
    broadcastInDim t ![] h (constant (F := Ideal) ⟨0, ![]⟩ .f32 w) j = Ideal.ofBits .f32 w := by
  rw [broadcastInDim_apply ![] h _ j ix0 (fun a => a.elim0), constant_apply]

/-- The host's quotient of two arrays, read at an index. -/
theorem hostDivf_at {s : Shape} {φ : FTy} (a b : FVec Ideal s φ) (i : s.Idx) :
    Host.divf a b i = Ideal.div (a i) (b i) := rfl

end Idealize.ShloMosaic.HostRead

end
-- ==== Proof.LibRealClosed.lean ====
/-
  Closure of the real numbers inside the extended reals.

  An extended real is called real here when it is the image of some real number. Zero and every coerced real are real, and
  the reals are closed under the sum, the difference and the product of the extended reals (whose values at the infinities
  are conventions that never come into play), hence under every finite sum.
-/
import Mathlib

open scoped BigOperators

namespace Cert.Lib.RealClosed

/-- An extended real that is the image of a real number. -/
def IsReal (e : EReal) : Prop := ∃ r : ℝ, e = (r : EReal)

theorem isReal_coe (r : ℝ) : IsReal (r : EReal) := ⟨r, rfl⟩

theorem isReal_zero : IsReal (0 : EReal) := ⟨0, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A finite sum of reals is a real. -/
theorem isReal_sum {ι : Type*} (s : Finset ι) (f : ι → EReal) (hf : ∀ k ∈ s, IsReal (f k)) :
    IsReal (∑ k ∈ s, f k) := by
  classical
  induction s using Finset.induction_on with
  | empty => simpa using isReal_zero
  | insert a s ha ih =>
    rw [Finset.sum_insert ha]
    exact (hf a (Finset.mem_insert_self a s)).add (ih fun k hk => hf k (Finset.mem_insert_of_mem hk))

/-- A sum over a whole finite type of reals is a real. -/
theorem isReal_sum_univ {ι : Type*} [Fintype ι] (f : ι → EReal) (hf : ∀ k, IsReal (f k)) :
    IsReal (∑ k, f k) :=
  isReal_sum Finset.univ f fun k _ => hf k

end Cert.Lib.RealClosed
-- ==== Proof.LibPropLinear.lean ====
/-
  A weighted sum over a finite set of rows commutes with a product by a matrix column, on the extended reals, when every
  number involved is a real.

  For weights n e, rows g e k and a column W k, all real:
      z + ∑ e ∈ s, n e · (∑ k, g e k · W k)  =  ∑ k, (z + ∑ e ∈ s, n e · g e k) · W k        (z = 0),
  which is distributivity and an exchange of the two finite sums. Distributivity fails on the extended reals at the
  infinities, so the statement asks for reals; the proof moves to ℝ, where it is `Finset.mul_sum`, `Finset.sum_comm`
  and `ring`, and comes back by the coercion's compatibility with sums and products.
-/
import Mathlib
import proofs.«137467_j84954453114994_2_alg».proof.Proof.LibRealClosed

open scoped BigOperators

namespace Cert.Lib.PropLinear

open Cert.Lib.RealClosed

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Propagating the rows g e · (weights n e, summed over the edges e ∈ s) and then multiplying by the column W is the
    same as multiplying each row by the column first and propagating the products, for real data. -/
theorem prop_matmul {ι κ : Type*} [Fintype κ] (s : Finset ι) (z : EReal) (hz : z = 0) (n : ι → EReal) (g : ι → κ → EReal)
    (W : κ → EReal) (hn : ∀ e, IsReal (n e)) (hg : ∀ e k, IsReal (g e k)) (hW : ∀ k, IsReal (W k)) :
    z + ∑ e ∈ s, n e * (∑ k, g e k * W k) = ∑ k, (z + ∑ e ∈ s, n e * g e k) * W k := by
  classical
  choose n' hn' using hn
  choose g' hg' using hg
  choose W' hW' using hW
  subst hz
  simp only [hn', hg', hW', zero_add, ← EReal.coe_mul, ← coe_sum]
  refine congrArg _ ?_
  simp only [Finset.mul_sum, Finset.sum_mul]
  rw [Finset.sum_comm]
  refine Finset.sum_congr rfl fun k _ => Finset.sum_congr rfl fun e _ => ?_
  ring

end Cert.Lib.PropLinear
-- ==== Proof.Spec.lean ====
/-
  The two programs' common mathematics, index by index, on the extended reals.

  A graph layer here is  out = h · W₀ + prop(h) · W₁ + bias,  where prop(h) sends to node p the sum, over the edges that
  land on p, of the edge's weight times the row of h at the edge's source. This module states, over arrays of any sizes:
  `mm`       an entry of a matrix product as a sum over the contracted coordinate;
  `layer1`   the first layer with its rectifier, entry by entry;
  `proj`     a plain matrix product, entry by entry;
  `fin`      the sum of two arrays and a bias row, entry by entry;
  `propAt`   an entry of prop(h): zero plus the sum over the edges whose target word is p of weight · source row;
  `prop_apply`  the host's spelling of prop (an accumulating row scatter into zeros of weight-broadcast times gathered
                rows) read at an entry is `propAt`;
  `propAt_matmul`  prop commutes with a product by a matrix on the right, for real data;
  `propAt_real`, `mm_real`, `layer1_real`  the reals are closed under these.
-/
import Idealize.ShloMosaic.Lib.ValueIdx
import Idealize.ShloMosaic.Lib.Pipeline.Value
import Idealize.ShloMosaic.PureOps.Ideal.Laws
import proofs.«137467_j84954453114994_2_alg».proof.Proof.LibGatherRows
import proofs.«137467_j84954453114994_2_alg».proof.Proof.LibScatterSum
import proofs.«137467_j84954453114994_2_alg».proof.Proof.LibColInDim
import proofs.«137467_j84954453114994_2_alg».proof.Proof.LibHostRead
import proofs.«137467_j84954453114994_2_alg».proof.Proof.LibRealClosed
import proofs.«137467_j84954453114994_2_alg».proof.Proof.LibPropLinear

noncomputable section

open scoped BigOperators

namespace Cert.Spec

open Idealize.ShloMosaic Idealize.ShloMosaic.ValueIdx Cert.Lib Cert.Lib.RealClosed Finset

/-- The word of zero as an extended real. -/
abbrev zeroW : EReal := Ideal.ofBits .f32 0x00000000#32

theorem zeroW_eq : zeroW = 0 := Ideal.ofBits_zero_f32

/-- Entry (p, q) of the product of an [a, n] by an [n, b] array. -/
def mm {a n b : ℕ} (l : (⟨2, ![a, n]⟩ : Shape).Idx → EReal) (r : (⟨2, ![n, b]⟩ : Shape).Idx → EReal)
    (p : Fin a) (q : Fin b) : EReal :=
  ∑ k : Fin n, l (ix2 p k) * r (ix2 k q)

/-- The first layer: max (x · w0 + pr · w1 + bias, 0), entry by entry. -/
def layer1 {N C D : ℕ} (x pr : (⟨2, ![N, C]⟩ : Shape).Idx → EReal) (w0 w1 : (⟨2, ![C, D]⟩ : Shape).Idx → EReal)
    (bias : (⟨2, ![1, D]⟩ : Shape).Idx → EReal) : (⟨2, ![N, D]⟩ : Shape).Idx → EReal :=
  fun i => max ((mm x w0 (rowOf i) (colOf i) + mm pr w1 (rowOf i) (colOf i)) + bias (ix2 (0 : Fin 1) (colOf i))) zeroW

/-- A plain product h · w, entry by entry. -/
def proj {N C D : ℕ} (h : (⟨2, ![N, C]⟩ : Shape).Idx → EReal) (w : (⟨2, ![C, D]⟩ : Shape).Idx → EReal) :
    (⟨2, ![N, D]⟩ : Shape).Idx → EReal :=
  fun i => mm h w (rowOf i) (colOf i)

/-- a + b + bias row, entry by entry. -/
def fin {N D : ℕ} (a b : (⟨2, ![N, D]⟩ : Shape).Idx → EReal) (bias : (⟨2, ![1, D]⟩ : Shape).Idx → EReal) :
    (⟨2, ![N, D]⟩ : Shape).Idx → EReal :=
  fun i => (a i + b i) + bias (ix2 (0 : Fin 1) (colOf i))

theorem layer1_ix2 {N C D : ℕ} (x pr : (⟨2, ![N, C]⟩ : Shape).Idx → EReal) (w0 w1 : (⟨2, ![C, D]⟩ : Shape).Idx → EReal)
    (bias : (⟨2, ![1, D]⟩ : Shape).Idx → EReal) (p : Fin N) (q : Fin D) :
    layer1 x pr w0 w1 bias (ix2 p q) = max ((mm x w0 p q + mm pr w1 p q) + bias (ix2 (0 : Fin 1) q)) zeroW := rfl

theorem proj_ix2 {N C D : ℕ} (h : (⟨2, ![N, C]⟩ : Shape).Idx → EReal) (w : (⟨2, ![C, D]⟩ : Shape).Idx → EReal)
    (p : Fin N) (q : Fin D) : proj h w (ix2 p q) = mm h w p q := rfl

theorem fin_ix2 {N D : ℕ} (a b : (⟨2, ![N, D]⟩ : Shape).Idx → EReal) (bias : (⟨2, ![1, D]⟩ : Shape).Idx → EReal)
    (p : Fin N) (q : Fin D) : fin a b bias (ix2 p q) = (a (ix2 p q) + b (ix2 p q)) + bias (ix2 (0 : Fin 1) q) := rfl

/-- Entry (p, q) of the propagated array: zero plus, over the edges r whose target word is p, the edge's weight times
    entry q of the source row (the source word clamped into the array). -/
def propAt {N M C w : ℕ} (hN : 0 < N) (nrm : (⟨1, ![M]⟩ : Shape).Idx → EReal) (sidx didx : IVec ⟨2, ![M, 1]⟩ w)
    (h : (⟨2, ![N, C]⟩ : Shape).Idx → EReal) (p : Fin N) (q : Fin C) : EReal :=
  zeroW + ∑ r ∈ univ.filter (fun r : Fin M => (didx (ix2 r (0 : Fin 1))).toInt = (p.val : Int)),
    nrm (ix1 r) * h (ix2 (clampRow N hN sidx r) q)

/-- The host's spelling of the propagation, read at an entry. The gathered array may carry any float format. -/
theorem prop_apply {N M C w : ℕ} {φ : FTy} (hN : 0 < N)
    (ds : ScatterDims ⟨2, ![N, C]⟩ ⟨2, ![M, 1]⟩ ⟨2, ![M, C]⟩) (hds : IsRowScatter ds)
    (dg : GatherDims ⟨2, ![N, C]⟩ ⟨2, ![M, 1]⟩ ⟨2, ![M, C]⟩) (hdg : IsRowGather dg)
    (hb0 : (⟨0, ![]⟩ : Shape).BroadcastsInDim ⟨2, ![N, C]⟩ ![])
    (hb1 : (⟨1, ![M]⟩ : Shape).BroadcastsInDim ⟨2, ![M, 1]⟩ ![0])
    (hb2 : (⟨2, ![M, 1]⟩ : Shape).BroadcastsInDim ⟨2, ![M, C]⟩ ![0, 1])
    (nrm : FVec Ideal ⟨1, ![M]⟩ .f32) (sidx didx : IVec ⟨2, ![M, 1]⟩ w) (h : FVec Ideal ⟨2, ![N, C]⟩ φ)
    (p : Fin N) (q : Fin C) :
    Host.scatterAdd (F := Ideal) (φ := .f32) ds (broadcastInDim ⟨2, ![N, C]⟩ ![] hb0 (constant (F := Ideal) ⟨0, ![]⟩ .f32 0x00000000#32)) didx
        (mulf (F := Ideal) (φ := .f32) (broadcastInDim ⟨2, ![M, C]⟩ ![0, 1] hb2 (broadcastInDim ⟨2, ![M, 1]⟩ ![0] hb1 nrm))
          (Host.gather dg h sidx)) (ix2 p q)
      = propAt hN nrm sidx didx h p q := by
  rw [rowScatterAdd_apply ds hds _ didx _ p q, Idealize.ShloMosaic.HostRead.splat_at]
  unfold propAt
  refine congrArg _ (Finset.sum_congr rfl fun r _ => ?_)
  rw [mulf_apply, Cert.LibColInDim.bcast_a1_ab_apply, Cert.LibColInDim.bcast_a_a1_apply, row_gather_apply hN dg hdg]

/-- Propagation commutes with a product by a matrix on the right, when weights, rows and matrix are real. -/
theorem propAt_matmul {N M C D w : ℕ} (hN : 0 < N) (nrm : (⟨1, ![M]⟩ : Shape).Idx → EReal) (sidx didx : IVec ⟨2, ![M, 1]⟩ w)
    (h : (⟨2, ![N, C]⟩ : Shape).Idx → EReal) (W : (⟨2, ![C, D]⟩ : Shape).Idx → EReal)
    (hn : ∀ r, IsReal (nrm r)) (hh : ∀ i, IsReal (h i)) (hW : ∀ i, IsReal (W i)) (p : Fin N) (q : Fin D) :
    propAt hN nrm sidx didx (fun i => mm h W (rowOf i) (colOf i)) p q
      = ∑ k : Fin C, propAt hN nrm sidx didx h p k * W (ix2 k q) := by
  unfold propAt
  exact Cert.Lib.PropLinear.prop_matmul _ zeroW zeroW_eq (fun r => nrm (ix1 r))
    (fun r k => h (ix2 (clampRow N hN sidx r) k)) (fun k => W (ix2 k q)) (fun r => hn _) (fun r k => hh _) (fun k => hW _)

theorem mm_real {a n b : ℕ} (l : (⟨2, ![a, n]⟩ : Shape).Idx → EReal) (r : (⟨2, ![n, b]⟩ : Shape).Idx → EReal)
    (hl : ∀ i, IsReal (l i)) (hr : ∀ i, IsReal (r i)) (p : Fin a) (q : Fin b) : IsReal (mm l r p q) :=
  isReal_sum_univ _ fun k => (hl _).mul (hr _)

theorem propAt_real {N M C w : ℕ} (hN : 0 < N) (nrm : (⟨1, ![M]⟩ : Shape).Idx → EReal) (sidx didx : IVec ⟨2, ![M, 1]⟩ w)
    (h : (⟨2, ![N, C]⟩ : Shape).Idx → EReal) (hn : ∀ r, IsReal (nrm r)) (hh : ∀ i, IsReal (h i)) (p : Fin N) (q : Fin C) :
    IsReal (propAt hN nrm sidx didx h p q) := by
  unfold propAt
  rw [zeroW_eq]
  exact isReal_zero.add (isReal_sum _ _ fun r _ => (hn _).mul (hh _))

/-- The maximum of two reals is a real. -/
theorem isReal_max {a b : EReal} (ha : IsReal a) (hb : IsReal b) : IsReal (max a b) := by
  rcases max_choice a b with h | h <;> rw [h] <;> assumption

theorem layer1_real {N C D : ℕ} (x pr : (⟨2, ![N, C]⟩ : Shape).Idx → EReal) (w0 w1 : (⟨2, ![C, D]⟩ : Shape).Idx → EReal)
    (bias : (⟨2, ![1, D]⟩ : Shape).Idx → EReal) (hx : ∀ i, IsReal (x i)) (hp : ∀ i, IsReal (pr i))
    (h0 : ∀ i, IsReal (w0 i)) (h1 : ∀ i, IsReal (w1 i)) (hb : ∀ i, IsReal (bias i)) (i : (⟨2, ![N, D]⟩ : Shape).Idx) :
    IsReal (layer1 x pr w0 w1 bias i) := by
  unfold layer1
  refine isReal_max (((mm_real x w0 hx h0 _ _).add (mm_real pr w1 hp h1 _ _)).add (hb _)) ?_
  rw [zeroW_eq]; exact isReal_zero

end Cert.Spec

end
-- ==== Proof.LibCallCasts.lean ====
/-
  The casts an inlined function call leaves around its values cancel.

  An operation of an inlined function call reads and writes its buffers through typed references: a value is carried
  to the buffer's own type when written (`toBuf`) and back when read (`ofBuf`), each a cast along the reference's
  type equation. So the fold of a line of such operations leaves one `ofBuf (toBuf v)` around every operand that
  another operation of the call produced. The two casts run along an equation and its inverse, so the pair is the
  identity; rewriting with that leaves the operations' plain composition.
-/
import Idealize.ShloMosaic.Lib.StableHlo

namespace Cert.LibCallCasts

open Idealize.ShloMosaic Idealize.ShloMosaic.StableHlo

variable {sig : RefSig} {Val : EltTy → Type}

/-- Contents carried to a buffer's type and back are the contents. -/
theorem ofBuf_toBuf {T : BufTy} (x : TRef sig T) (v : T.Contents Val) : x.ofBuf (x.toBuf v) = v := by
  unfold TRef.ofBuf TRef.toBuf
  simp only [cast_cast, cast_eq]

end Cert.LibCallCasts
-- ==== Proof.KHostA.lean ====
/-
  The idealized kernel program's buffers at the boundaries between its host stretches and regions, as functions of the
  seven argument arrays (x = a0, the edge index array a1, the edge weights a2, W1 = a3, b1 = a4, W2 = a5, b2 = a6).

  Up to the first region the program computes, on the host, exactly the reference's edge normalisation and propagation
  of x — the same operations in the same order, the gathered rows passing through a narrower float format and back,
  which at the ideal instance is the identity. Each boundary value is therefore one of the reference's stage values.
-/
import proofs.«137467_j84954453114994_2_alg».proof.Proof.Gen.KernelIdeal.Frame
import proofs.«137467_j84954453114994_2_alg».proof.Proof.Gen.ReferenceIdeal.Read
import proofs.«137467_j84954453114994_2_alg».proof.Proof.Spec
import proofs.«137467_j84954453114994_2_alg».proof.Proof.LibCallCasts
import Idealize.ShloMosaic.Lib.StableHlo.Run
import Idealize.ShloMosaic.Lib.ValueLayout

set_option maxRecDepth 16384

noncomputable section

namespace Cert.KernelIdeal.KVal

open Cert.KernelIdeal Cert.KernelIdeal.Gen Cert.ReferenceIdeal.Read Cert.Spec Cert.Lib
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- The argument arrays as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)

/-- At the ideal instance a change of float format is the identity on arrays. -/
theorem extf_id {s : Shape} {φ ψ : FTy} (a : FVec Ideal s φ) (h : φ.bits < ψ.bits) : (extf ψ a h : FVec Ideal s ψ) = a := rfl
theorem truncf_id {s : Shape} {φ ψ : FTy} (a : FVec Ideal s φ) (h : ψ.bits < φ.bits) : (truncf ψ a h : FVec Ideal s ψ) = a := rfl

/-! ## The typed references of the two inlined selections: carrying a value to a buffer's type and back changes nothing -/

theorem ofBuf_v8 (h1 h2 h3) (v : main_v8.ty.Contents (Elt Ideal)) :
    (TRef.of (sig := sig) (T := ⟨S50000, .i1⟩) main_v8 h1 h2 h3).ofBuf v = v := eq_of_heq (cast_heq _ _)
theorem ofBuf_v6 (h1 h2 h3) (v : main_v6.ty.Contents (Elt Ideal)) :
    (TRef.of (sig := sig) (T := ⟨S50000, .f32⟩) main_v6 h1 h2 h3).ofBuf v = v := eq_of_heq (cast_heq _ _)
theorem ofBuf_cst1 (h1 h2 h3) (v : main_cst_1.ty.Contents (Elt Ideal)) :
    (TRef.of (sig := sig) (T := ⟨S_, .f32⟩) main_cst_1 h1 h2 h3).ofBuf v = v := eq_of_heq (cast_heq _ _)
theorem toBuf_v9 (h1 h2 h3) (v : (⟨S50000, .f32⟩ : BufTy).Contents (Elt Ideal)) :
    (TRef.of (sig := sig) (T := ⟨S50000, .f32⟩) main_v9 h1 h2 h3).toBuf v = v := eq_of_heq (cast_heq _ _)
theorem ofBuf_v11 (h1 h2 h3) (v : main_v11.ty.Contents (Elt Ideal)) :
    (TRef.of (sig := sig) (T := ⟨S50000, .i1⟩) main_v11 h1 h2 h3).ofBuf v = v := eq_of_heq (cast_heq _ _)
theorem ofBuf_v12 (h1 h2 h3) (v : main_v12.ty.Contents (Elt Ideal)) :
    (TRef.of (sig := sig) (T := ⟨S50000, .f32⟩) main_v12 h1 h2 h3).ofBuf v = v := eq_of_heq (cast_heq _ _)
theorem ofBuf_cst3 (h1 h2 h3) (v : main_cst_3.ty.Contents (Elt Ideal)) :
    (TRef.of (sig := sig) (T := ⟨S_, .f32⟩) main_cst_3 h1 h2 h3).ofBuf v = v := eq_of_heq (cast_heq _ _)
theorem toBuf_v13 (h1 h2 h3) (v : (⟨S50000, .f32⟩ : BufTy).Contents (Elt Ideal)) :
    (TRef.of (sig := sig) (T := ⟨S50000, .f32⟩) main_v13 h1 h2 h3).toBuf v = v := eq_of_heq (cast_heq _ _)

/-! ## After the first stretch: the two index rows, the degree, its sign test -/

theorem w1_v6 : W1 m ρ c (Proc.devRef .tc main_v6) = val_main_v6 (F := Ideal) (a1 m c) (a2 m c) := by
  show StableHlo.after (hostOps0 (F := Ideal)) (W0 m ρ c) (Proc.devRef .tc main_v6) = _
  after_results
  try rfl
theorem w1_v8 : W1 m ρ c (Proc.devRef .tc main_v8) = val_main_v8 (F := Ideal) (a1 m c) (a2 m c) := by
  show StableHlo.after (hostOps0 (F := Ideal)) (W0 m ρ c) (Proc.devRef .tc main_v8) = _
  after_results
  try rfl
theorem w1_cst1 : W1 m ρ c (Proc.devRef .tc main_cst_1) = val_main_cst_1 (F := Ideal) := by
  show StableHlo.after (hostOps0 (F := Ideal)) (W0 m ρ c) (Proc.devRef .tc main_cst_1) = _
  after_results
  try rfl

/-! ## After the first selection: the degree made safe for the reciprocal square root -/

theorem w2_v9 : W2 m ρ c (Proc.devRef .tc main_v9) = val_main_v9 (F := Ideal) (a1 m c) (a2 m c) := by
  have h8 := w1_v8 m ρ c
  have h6 := w1_v6 m ρ c
  have hc := w1_cst1 m ρ c
  show StableHlo.after (hostOps0_1 (F := Ideal)) (W1 m ρ c) (Proc.devRef .tc main_v9) = _
  generalize W1 m ρ c = Wv at h8 h6 hc ⊢
  after_results
  rw [h8, h6, hc]
  simp only [Cert.LibCallCasts.ofBuf_toBuf, ofBuf_v8, ofBuf_v6, ofBuf_cst1, toBuf_v9, id_eq]
  unfold val_main_v9 val_main_call0_v1 val_main_call0_v0
  rfl
theorem w2_v6 : W2 m ρ c (Proc.devRef .tc main_v6) = val_main_v6 (F := Ideal) (a1 m c) (a2 m c) := by
  show StableHlo.after (hostOps0_1 (F := Ideal)) (W1 m ρ c) (Proc.devRef .tc main_v6) = _
  after_results
  try rfl

/-! ## After the third stretch: the sign test again and the reciprocal square root -/

theorem w3_v11 : W3 m ρ c (Proc.devRef .tc main_v11) = val_main_v11 (F := Ideal) (a1 m c) (a2 m c) := by
  have h6 := w2_v6 m ρ c
  show StableHlo.after (hostOps0_2 (F := Ideal)) (W2 m ρ c) (Proc.devRef .tc main_v11) = _
  generalize W2 m ρ c = Wv at h6 ⊢
  after_results
  rw [h6]
  rfl
theorem w3_v12 : W3 m ρ c (Proc.devRef .tc main_v12) = val_main_v12 (F := Ideal) (a1 m c) (a2 m c) := by
  have h9 := w2_v9 m ρ c
  show StableHlo.after (hostOps0_2 (F := Ideal)) (W2 m ρ c) (Proc.devRef .tc main_v12) = _
  generalize W2 m ρ c = Wv at h9 ⊢
  after_results
  rw [h9]
  rfl
theorem w3_cst3 : W3 m ρ c (Proc.devRef .tc main_cst_3) = val_main_cst_3 (F := Ideal) := by
  show StableHlo.after (hostOps0_2 (F := Ideal)) (W2 m ρ c) (Proc.devRef .tc main_cst_3) = _
  generalize W2 m ρ c = Wv
  after_results
  try rfl

/-! ## After the second selection: the degree factor of every node; the index rows and the arguments as they were -/

theorem w4_v13 : W4 m ρ c (Proc.devRef .tc main_v13) = val_main_v13 (F := Ideal) (a1 m c) (a2 m c) := by
  have h11 := w3_v11 m ρ c
  have h12 := w3_v12 m ρ c
  have hc := w3_cst3 m ρ c
  show StableHlo.after (hostOps0_3 (F := Ideal)) (W3 m ρ c) (Proc.devRef .tc main_v13) = _
  generalize W3 m ρ c = Wv at h11 h12 hc ⊢
  after_results
  rw [h11, h12, hc]
  simp only [Cert.LibCallCasts.ofBuf_toBuf, ofBuf_v11, ofBuf_v12, ofBuf_cst3, toBuf_v13, id_eq]
  unfold val_main_v13 val_main_call1_v1 val_main_call1_v0
  rfl
theorem w4_v1 : W4 m ρ c (Proc.devRef .tc main_v1) = val_main_v1 (F := Ideal) (a1 m c) := by
  show StableHlo.after (hostOps0_3 (F := Ideal)) (W3 m ρ c) (Proc.devRef .tc main_v1) = _
  after_results
  try rfl
theorem w4_v3 : W4 m ρ c (Proc.devRef .tc main_v3) = val_main_v3 (F := Ideal) (a1 m c) := by
  show StableHlo.after (hostOps0_3 (F := Ideal)) (W3 m ρ c) (Proc.devRef .tc main_v3) = _
  after_results
  try rfl
theorem w4_a0 : W4 m ρ c (Proc.devRef .tc main_arg0) = a0 m c := by
  show StableHlo.after (hostOps0_3 (F := Ideal)) (W3 m ρ c) (Proc.devRef .tc main_arg0) = _
  after_results
  try rfl
theorem w4_a2 : W4 m ρ c (Proc.devRef .tc main_arg2) = a2 m c := by
  show StableHlo.after (hostOps0_3 (F := Ideal)) (W3 m ρ c) (Proc.devRef .tc main_arg2) = _
  after_results
  try rfl
theorem w4_a3 : W4 m ρ c (Proc.devRef .tc main_arg3) = a3 m c := by
  show StableHlo.after (hostOps0_3 (F := Ideal)) (W3 m ρ c) (Proc.devRef .tc main_arg3) = _
  after_results
  try rfl
theorem w4_a4 : W4 m ρ c (Proc.devRef .tc main_arg4) = a4 m c := by
  show StableHlo.after (hostOps0_3 (F := Ideal)) (W3 m ρ c) (Proc.devRef .tc main_arg4) = _
  after_results
  try rfl
theorem w4_a5 : W4 m ρ c (Proc.devRef .tc main_arg5) = a5 m c := by
  show StableHlo.after (hostOps0_3 (F := Ideal)) (W3 m ρ c) (Proc.devRef .tc main_arg5) = _
  after_results
  try rfl
theorem w4_a6 : W4 m ρ c (Proc.devRef .tc main_arg6) = a6 m c := by
  show StableHlo.after (hostOps0_3 (F := Ideal)) (W3 m ρ c) (Proc.devRef .tc main_arg6) = _
  after_results
  try rfl

/-! ## At the first region's entry: the edge normalisation, the propagated x, the two weight matrices, the bias row -/

theorem hN : 0 < 50000 := by decide

theorem krs128 : IsRowScatter Cert.KernelIdeal.scatter_S50000x128_S800000x1_S800000x128_1_0_0_1 := ⟨rfl, rfl, rfl, rfl⟩
theorem krg128 : IsRowGather Cert.KernelIdeal.gather_S50000x128_S800000x1_S800000x128_1_0_n_n_0_1_1128 := ⟨rfl, rfl, rfl, rfl, rfl, rfl, rfl⟩
theorem krs64 : IsRowScatter Cert.KernelIdeal.scatter_S50000x64_S800000x1_S800000x64_1_0_0_1 := ⟨rfl, rfl, rfl, rfl⟩
theorem krg64 : IsRowGather Cert.KernelIdeal.gather_S50000x64_S800000x1_S800000x64_1_0_n_n_0_1_164 := ⟨rfl, rfl, rfl, rfl, rfl, rfl, rfl⟩

/-- The propagation whose gathered rows pass through a narrower float format and back, read at an entry: at the ideal
    instance the two format changes are the identity. -/
theorem prop_apply_narrow {N M C w : ℕ} (hN : 0 < N)
    (ds : ScatterDims ⟨2, ![N, C]⟩ ⟨2, ![M, 1]⟩ ⟨2, ![M, C]⟩) (hds : IsRowScatter ds)
    (dg : GatherDims ⟨2, ![N, C]⟩ ⟨2, ![M, 1]⟩ ⟨2, ![M, C]⟩) (hdg : IsRowGather dg)
    (hb0 : (⟨0, ![]⟩ : Shape).BroadcastsInDim ⟨2, ![N, C]⟩ ![])
    (hb1 : (⟨1, ![M]⟩ : Shape).BroadcastsInDim ⟨2, ![M, 1]⟩ ![0])
    (hb2 : (⟨2, ![M, 1]⟩ : Shape).BroadcastsInDim ⟨2, ![M, C]⟩ ![0, 1])
    (nrm : FVec Ideal ⟨1, ![M]⟩ .f32) (sidx didx : IVec ⟨2, ![M, 1]⟩ w) (h : FVec Ideal ⟨2, ![N, C]⟩ .f32)
    (hlt : FTy.bf16.bits < FTy.f32.bits) (p : Fin N) (q : Fin C) :
    Host.scatterAdd (F := Ideal) (φ := .f32) ds (broadcastInDim ⟨2, ![N, C]⟩ ![] hb0 (constant (F := Ideal) ⟨0, ![]⟩ .f32 0x00000000#32)) didx
        (mulf (F := Ideal) (φ := .f32) (broadcastInDim ⟨2, ![M, C]⟩ ![0, 1] hb2 (broadcastInDim ⟨2, ![M, 1]⟩ ![0] hb1 nrm))
          (extf .f32 (Host.gather dg (truncf .bf16 h hlt) sidx) hlt)) (ix2 p q)
      = propAt hN nrm sidx didx h p q :=
  prop_apply (φ := .bf16) hN ds hds dg hdg hb0 hb1 hb2 nrm sidx didx (truncf .bf16 h hlt) p q

set_option maxHeartbeats 4000000 in
theorem w5_v30 : W5 m ρ c (Proc.devRef .tc main_v30) = val_main_v30 (F := Ideal) (a1 m c) (a2 m c) := by
  have h13 := w4_v13 m ρ c
  have h1 := w4_v1 m ρ c
  have h3 := w4_v3 m ρ c
  have h2 := w4_a2 m ρ c
  show StableHlo.after (hostOps0_4 (F := Ideal)) (W4 m ρ c) (Proc.devRef .tc main_v30) = _
  generalize W4 m ρ c = Wv at h13 h1 h3 h2 ⊢
  after_results_simp
  rw [h13, h1, h3, h2]
  unfold val_main_v30 val_main_v22 val_main_v29 val_main_v21 val_main_v20 val_main_v19 val_main_v18 val_main_v15 val_main_v17 val_main_v14 val_main_v16 val_main_c val_main_c_4 val_main_v28 val_main_v27 val_main_v24 val_main_v26 val_main_v23 val_main_v25 val_main_c_5 val_main_c_6
  rfl

set_option maxHeartbeats 4000000 in
/-- The propagated x at (p, k). -/
theorem w5_v45 (p : Fin 50000) (k : Fin 128) :
    W5 m ρ c (Proc.devRef .tc main_v45) (ix2 p k) = propAt hN (val_main_v30 (F := Ideal) (a1 m c) (a2 m c)) (val_main_v40 (F := Ideal) (a1 m c)) (val_main_v45 (F := Ideal) (a1 m c)) (a0 m c) p k := by
  have h13 := w4_v13 m ρ c
  have h1 := w4_v1 m ρ c
  have h3 := w4_v3 m ρ c
  have h2 := w4_a2 m ρ c
  have h0 := w4_a0 m ρ c
  show StableHlo.after (hostOps0_4 (F := Ideal)) (W4 m ρ c) (Proc.devRef .tc main_v45) (ix2 p k) = _
  generalize W4 m ρ c = Wv at h13 h1 h3 h2 h0 ⊢
  after_results_simp
  rw [h13, h1, h3, h2, h0]
  refine (prop_apply_narrow hN _ krs128 _ krg128 _ _ _ _ _ _ (a0 m c) _ p k).trans ?_
  unfold val_main_v30 val_main_v22 val_main_v29 val_main_v21 val_main_v20 val_main_v19 val_main_v18 val_main_v15 val_main_v17 val_main_v14 val_main_v16 val_main_c val_main_c_4 val_main_v28 val_main_v27 val_main_v24 val_main_v26 val_main_v23 val_main_v25 val_main_c_5 val_main_c_6
  unfold val_main_v40 val_main_v39 val_main_v36 val_main_v38 val_main_v35 val_main_v37 val_main_c_7 val_main_c_8 val_main_v45
  rfl

theorem w5_v47 : W5 m ρ c (Proc.devRef .tc main_v47) = val_main_v32 (F := Ideal) (a3 m c) := by
  have h3 := w4_a3 m ρ c
  show StableHlo.after (hostOps0_4 (F := Ideal)) (W4 m ρ c) (Proc.devRef .tc main_v47) = _
  generalize W4 m ρ c = Wv at h3 ⊢
  after_results
  rw [h3]
  rfl
theorem w5_v49 : W5 m ρ c (Proc.devRef .tc main_v49) = val_main_v48 (F := Ideal) (a3 m c) := by
  have h3 := w4_a3 m ρ c
  show StableHlo.after (hostOps0_4 (F := Ideal)) (W4 m ρ c) (Proc.devRef .tc main_v49) = _
  generalize W4 m ρ c = Wv at h3 ⊢
  after_results
  rw [h3]
  rfl
/-- The bias vector laid down as one row, read at column j. -/
theorem w5_v50 (j : Fin 128) : W5 m ρ c (Proc.devRef .tc main_v50) (ix2 (0 : Fin 1) j) = a4 m c (ix1 j) := by
  have h4 := w4_a4 m ρ c
  show StableHlo.after (hostOps0_4 (F := Ideal)) (W4 m ρ c) (Proc.devRef .tc main_v50) (ix2 (0 : Fin 1) j) = _
  generalize W4 m ρ c = Wv at h4 ⊢
  after_results
  rw [h4]
  exact shapeCast_a_1a_apply (a4 m c) _ (0 : Fin 1) j
theorem w5_a0 : W5 m ρ c (Proc.devRef .tc main_arg0) = a0 m c := by
  show StableHlo.after (hostOps0_4 (F := Ideal)) (W4 m ρ c) (Proc.devRef .tc main_arg0) = _
  after_results
  try rfl
theorem w5_a5 : W5 m ρ c (Proc.devRef .tc main_arg5) = a5 m c := by
  show StableHlo.after (hostOps0_4 (F := Ideal)) (W4 m ρ c) (Proc.devRef .tc main_arg5) = _
  after_results
  try rfl
theorem w5_a6 : W5 m ρ c (Proc.devRef .tc main_arg6) = a6 m c := by
  show StableHlo.after (hostOps0_4 (F := Ideal)) (W4 m ρ c) (Proc.devRef .tc main_arg6) = _
  after_results
  try rfl
theorem w5_v1 : W5 m ρ c (Proc.devRef .tc main_v1) = val_main_v1 (F := Ideal) (a1 m c) := by
  show StableHlo.after (hostOps0_4 (F := Ideal)) (W4 m ρ c) (Proc.devRef .tc main_v1) = _
  after_results
  try rfl
theorem w5_v3 : W5 m ρ c (Proc.devRef .tc main_v3) = val_main_v3 (F := Ideal) (a1 m c) := by
  show StableHlo.after (hostOps0_4 (F := Ideal)) (W4 m ρ c) (Proc.devRef .tc main_v3) = _
  after_results
  try rfl

end Cert.KernelIdeal.KVal

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.KRegion0.lean ====
/-
  The first kernel region (the first layer), from its blocks to the whole array.

  The region runs over ten grid points. At point t it reads rows 5000·t … 5000·t + 4999 of two [50000, 128] arrays (the
  node rows and the propagated rows), two whole [128, 128] weight arrays and the whole [1, 128] bias row, and stores,
  entry by entry, max (x · w0 + pr · w1 + bias, 0) into the same rows of the result. This module reads the stored value
  at one entry (`pay0_at`), reads each window's block as entries of its array (`blk0_0` … `blk0_4`), shows that what
  point t writes back is block t of `Cert.Spec.layer1` of the five arrays (`flushed0_eq`), that the ten row blocks cover
  the result (`cover0`), and so that the result array ends holding `Cert.Spec.layer1` of the five arrays as the region
  found them (`final0`).
-/
import proofs.«137467_j84954453114994_2_alg».proof.Proof.Gen.KernelIdeal.Frame
import proofs.«137467_j84954453114994_2_alg».proof.Proof.Spec
import proofs.«137467_j84954453114994_2_alg».proof.Proof.LibMatmulAt
import Idealize.ShloMosaic.Lib.Pipeline.Value
import Idealize.ShloMosaic.Lib.ValueIdx
import Idealize.ShloMosaic.Lib.ValueLayout

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-! ## The products' dimension numbers: where the two operand indices sit -/

theorem dot0_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot0_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot0_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot0_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored value at row r, column j: the two products' entries added, plus the bias row's entry j, cut below at
    zero. -/
theorem pay0_at (x0 x1 : Vec Ideal S5000x128 .f32) (x2 x3 : Vec Ideal S128x128 .f32) (x4 : Vec Ideal S1x128 .f32)
    (r : Fin 5000) (j : Fin 128) :
    k0_pay1 x0 x1 x2 x3 x4 (ix2 r j)
      = max ((Cert.Spec.mm x0 x2 r j + Cert.Spec.mm x1 x3 r j) + x4 (ix2 (0 : Fin 1) j)) Cert.Spec.zeroW := by
  unfold k0_pay1
  simp only [shapeCast_self]
  rw [maximumf_apply, addf_apply, addf_apply, broadcast_apply, broadcastTo_1b_ab_apply]
  refine congrArg₂ max (congrArg₂ (· + ·) (congrArg₂ (· + ·) ?_ ?_) rfl) rfl
  · exact Idealize.ShloMosaic.MatmulAt.matmul_zero_ix2 dot_S5000x128_S128x128_S5000x128_1_0_0_1_n_n rfl rfl dot0_l0 dot0_l1 dot0_r0 dot0_r1 none _ _ r j
  · exact Idealize.ShloMosaic.MatmulAt.matmul_zero_ix2 dot_S5000x128_S128x128_S5000x128_1_0_0_1_n_n rfl rfl dot0_l0 dot0_l1 dot0_r0 dot0_r1 none _ _ r j

/-- Two products agree at an entry when their operands agree along the row and the column the entry reads. -/
theorem mm_congr0 {a a' n b b' : ℕ} (l : (⟨2, ![a, n]⟩ : Shape).Idx → EReal) (l' : (⟨2, ![a', n]⟩ : Shape).Idx → EReal)
    (w : (⟨2, ![n, b]⟩ : Shape).Idx → EReal) (w' : (⟨2, ![n, b']⟩ : Shape).Idx → EReal)
    (p : Fin a) (p' : Fin a') (q : Fin b) (q' : Fin b')
    (hl : ∀ k : Fin n, l (ix2 p k) = l' (ix2 p' k)) (hw : ∀ k : Fin n, w (ix2 k q) = w' (ix2 k q')) :
    Cert.Spec.mm l w p q = Cert.Spec.mm l' w' p' q' := by
  unfold Cert.Spec.mm
  exact Finset.sum_congr rfl fun k _ => congrArg₂ (· * ·) (hl k) (hw k)

/-- The index maps over the grid: the row windows sit at block (t, 0), the weight and bias windows at block (0, 0). -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- Entry (r, j) of window 0's block at point t is entry (5000·t + r, j) of its array. -/
theorem blk0_0 (c : Dev nD) (t : Fin cfg0.N) (r : Fin 5000) (j : Fin 128) (k : S50000x128.Idx)
    (hk0 : (k 0).val = 5000 * t.val + r.val) (hk1 : (k 1).val = j.val) :
    (iblk0 V c 0 t : Vec Ideal S5000x128 .f32) (ix2 r j) = (V c main_arg0 : S50000x128.Idx → EReal) k := by
  have e0 := (idx_facts0 t).1.1
  have e1 := (idx_facts0 t).1.2
  show (V c main_arg0 : S50000x128.Idx → EReal) (((cfg0.win 0).blk t).view.emb (ix2 r j)) = V c main_arg0 k
  refine congrArg _ ?_
  funext a; apply Fin.ext
  match a with
  | ⟨0, _⟩ => show win0_0.index t (0 : Fin 2) * 5000 + 1 * r.val = (k 0).val; rw [e0, hk0]; omega
  | ⟨1, _⟩ => show win0_0.index t (1 : Fin 2) * 128 + 1 * j.val = (k 1).val; rw [e1, hk1]; omega

/-- Entry (r, j) of window 1's block at point t is entry (5000·t + r, j) of its array. -/
theorem blk0_1 (c : Dev nD) (t : Fin cfg0.N) (r : Fin 5000) (j : Fin 128) (k : S50000x128.Idx)
    (hk0 : (k 0).val = 5000 * t.val + r.val) (hk1 : (k 1).val = j.val) :
    (iblk0 V c 1 t : Vec Ideal S5000x128 .f32) (ix2 r j) = (V c main_v45 : S50000x128.Idx → EReal) k := by
  have e0 := (idx_facts0 t).2.1.1
  have e1 := (idx_facts0 t).2.1.2
  show (V c main_v45 : S50000x128.Idx → EReal) (((cfg0.win 1).blk t).view.emb (ix2 r j)) = V c main_v45 k
  refine congrArg _ ?_
  funext a; apply Fin.ext
  match a with
  | ⟨0, _⟩ => show win0_1.index t (0 : Fin 2) * 5000 + 1 * r.val = (k 0).val; rw [e0, hk0]; omega
  | ⟨1, _⟩ => show win0_1.index t (1 : Fin 2) * 128 + 1 * j.val = (k 1).val; rw [e1, hk1]; omega

/-- Entry (r, j) of window 2's block at any point is entry (r, j) of its weight array. -/
theorem blk0_2 (c : Dev nD) (t : Fin cfg0.N) (r : Fin 128) (j : Fin 128) (k : S128x128.Idx)
    (hk0 : (k 0).val = r.val) (hk1 : (k 1).val = j.val) :
    (iblk0 V c 2 t : Vec Ideal S128x128 .f32) (ix2 r j) = (V c main_v47 : S128x128.Idx → EReal) k := by
  have e0 := (idx_facts0 t).2.2.1.1
  have e1 := (idx_facts0 t).2.2.1.2
  show (V c main_v47 : S128x128.Idx → EReal) (((cfg0.win 2).blk t).view.emb (ix2 r j)) = V c main_v47 k
  refine congrArg _ ?_
  funext a; apply Fin.ext
  match a with
  | ⟨0, _⟩ => show win0_2.index t (0 : Fin 2) * 128 + 1 * r.val = (k 0).val; rw [e0, hk0]; omega
  | ⟨1, _⟩ => show win0_2.index t (1 : Fin 2) * 128 + 1 * j.val = (k 1).val; rw [e1, hk1]; omega

/-- Entry (r, j) of window 3's block at any point is entry (r, j) of its weight array. -/
theorem blk0_3 (c : Dev nD) (t : Fin cfg0.N) (r : Fin 128) (j : Fin 128) (k : S128x128.Idx)
    (hk0 : (k 0).val = r.val) (hk1 : (k 1).val = j.val) :
    (iblk0 V c 3 t : Vec Ideal S128x128 .f32) (ix2 r j) = (V c main_v49 : S128x128.Idx → EReal) k := by
  have e0 := (idx_facts0 t).2.2.2.1.1
  have e1 := (idx_facts0 t).2.2.2.1.2
  show (V c main_v49 : S128x128.Idx → EReal) (((cfg0.win 3).blk t).view.emb (ix2 r j)) = V c main_v49 k
  refine congrArg _ ?_
  funext a; apply Fin.ext
  match a with
  | ⟨0, _⟩ => show win0_3.index t (0 : Fin 2) * 128 + 1 * r.val = (k 0).val; rw [e0, hk0]; omega
  | ⟨1, _⟩ => show win0_3.index t (1 : Fin 2) * 128 + 1 * j.val = (k 1).val; rw [e1, hk1]; omega

/-- Entry (0, j) of the bias window's block at any point is entry (0, j) of the bias row. -/
theorem blk0_4 (c : Dev nD) (t : Fin cfg0.N) (j : Fin 128) (k : S1x128.Idx)
    (hk0 : (k 0).val = 0) (hk1 : (k 1).val = j.val) :
    (iblk0 V c 4 t : Vec Ideal S1x128 .f32) (ix2 (0 : Fin 1) j) = (V c main_v50 : S1x128.Idx → EReal) k := by
  have e0 := (idx_facts0 t).2.2.2.2.1.1
  have e1 := (idx_facts0 t).2.2.2.2.1.2
  show (V c main_v50 : S1x128.Idx → EReal) (((cfg0.win 4).blk t).view.emb (ix2 (0 : Fin 1) j)) = V c main_v50 k
  refine congrArg _ ?_
  funext a; apply Fin.ext
  match a with
  | ⟨0, _⟩ => show win0_4.index t (0 : Fin 2) * 1 + 1 * (0 : Fin 1).val = (k 0).val; rw [e0, hk0]; rfl
  | ⟨1, _⟩ => show win0_4.index t (1 : Fin 2) * 128 + 1 * j.val = (k 1).val; rw [e1, hk1]; omega

/-- What the result array ends holding: the first layer of the five arrays as the region finds them. -/
abbrev G0 (c : Dev nD) : S50000x128.Idx → EReal :=
  Cert.Spec.layer1 (N := 50000) (C := 128) (D := 128) (V c main_arg0) (V c main_v45) (V c main_v47) (V c main_v49) (V c main_v50)

/-- The first layer at any index, through the index's row and column. -/
theorem layer1_at (X P : S50000x128.Idx → EReal) (W0 W1 : S128x128.Idx → EReal) (bias : S1x128.Idx → EReal) (k : S50000x128.Idx) :
    Cert.Spec.layer1 (N := 50000) (C := 128) (D := 128) X P W0 W1 bias k
      = max ((Cert.Spec.mm X W0 (Cert.Lib.rowOf k) (Cert.Lib.colOf k) + Cert.Spec.mm P W1 (Cert.Lib.rowOf k) (Cert.Lib.colOf k))
          + bias (ix2 (0 : Fin 1) (Cert.Lib.colOf k))) Cert.Spec.zeroW := rfl

/-- What point t writes back is block t of the first layer. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz0]
  simp only [View.ld_unit_zero (S := S5000x128) hz0, View.ld_unit_zero (S := S128x128) hz0, View.ld_unit_zero (S := S1x128) hz0]
  have e0 := (idx_facts0 t).2.2.2.2.2.1
  have e1 := (idx_facts0 t).2.2.2.2.2.2
  funext y
  obtain ⟨r, j, rfl⟩ : ∃ (r : Fin 5000) (j : Fin 128), y = ix2 r j := ⟨y 0, y 1, eq_ix2 y⟩
  show k0_pay1 (iblk0 V c 0 t) (iblk0 V c 1 t) (iblk0 V c 2 t) (iblk0 V c 3 t) (iblk0 V c 4 t) (ix2 r j)
    = G0 V c (((cfg0.win 5).blk t).view.emb (ix2 r j))
  refine (pay0_at _ _ _ _ _ r j).trans ?_
  have hk0 : ((((cfg0.win 5).blk t).view.emb (ix2 r j) : S50000x128.Idx) 0).val = 5000 * t.val + r.val := by
    show win0_5.index t (0 : Fin 2) * 5000 + 1 * r.val = 5000 * t.val + r.val
    rw [e0]; omega
  have hk1 : ((((cfg0.win 5).blk t).view.emb (ix2 r j) : S50000x128.Idx) 1).val = j.val := by
    show win0_5.index t (1 : Fin 2) * 128 + 1 * j.val = j.val
    rw [e1]; omega
  refine Eq.trans ?_ (layer1_at (V c main_arg0) (V c main_v45) (V c main_v47) (V c main_v49) (V c main_v50)
    (((cfg0.win 5).blk t).view.emb (ix2 r j))).symm
  exact congrArg₂ max (congrArg₂ (· + ·) (congrArg₂ (· + ·)
      (mm_congr0 _ _ _ _ r _ j _ (fun k => blk0_0 V c t r k _ hk0 rfl) (fun k => blk0_2 V c t k j _ rfl hk1))
      (mm_congr0 _ _ _ _ r _ j _ (fun k => blk0_1 V c t r k _ hk0 rfl) (fun k => blk0_3 V c t k j _ rfl hk1)))
      (blk0_4 V c t j _ rfl hk1)) rfl

/-- An index of the result is in point t's block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v51).slice (win0_5.rect t)).set ↔ _
  rw [View.set_slice_whole, Rect.mem_set_unit]
  exact Iff.rfl

/-- Every entry of the result is in some point's block: row p is in the block of point p / 5000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  have e0 := (idx_facts0 t).2.2.2.2.2.1
  have e1 := (idx_facts0 t).2.2.2.2.2.2
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- The result array after the region: the first layer of the five arrays as the region found them. -/
theorem final0 (c : Dev nD) :
    (dat0 (F := Ideal) V c).arrAt 5 cfg0.N
      = Cert.Spec.layer1 (N := 50000) (C := 128) (D := 128) (V c main_arg0) (V c main_v45) (V c main_v47) (V c main_v49) (V c main_v50) :=
  (dat0 (F := Ideal) V c).arrAt_eq_of_cover 5 (G0 V c) (fun t _ => flushed0_eq V c t) cover0

end Cert.KernelIdeal.KVal

end
-- ==== Proof.KRegion1.lean ====
/-
  The second kernel region (the projection), from its blocks to the whole array.

  The region runs over ten grid points. At point t it reads rows 5000·t … 5000·t + 4999 of a [50000, 128] array and the
  whole [128, 128] weight array, and stores their matrix product into the same rows of the result. This module reads the
  stored value at one entry as a sum over the contracted coordinate (`pay1_at`), reads each window's block as entries of
  its array (`blk1_0`, `blk1_1`), shows that what point t writes back is block t of `Cert.Spec.proj` of the two arrays
  (`flushed1_eq`), that the ten row blocks cover the result (`cover1`), and so that the result array ends holding
  `Cert.Spec.proj` of the two arrays as the region found them (`final1`).
-/
import proofs.«137467_j84954453114994_2_alg».proof.Proof.Gen.KernelIdeal.Frame
import proofs.«137467_j84954453114994_2_alg».proof.Proof.Spec
import proofs.«137467_j84954453114994_2_alg».proof.Proof.LibMatmulAt
import Idealize.ShloMosaic.Lib.Pipeline.Value
import Idealize.ShloMosaic.Lib.ValueIdx
import Idealize.ShloMosaic.Lib.ValueLayout

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-! ## The product's dimension numbers: where the two operand indices sit -/

theorem dot1_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot1_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot1_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot1_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored value at row r, column j: the product's entry, a sum over the contracted coordinate. -/
theorem pay1_at (x0 : Vec Ideal S5000x128 .f32) (x1 : Vec Ideal S128x128 .f32) (r : Fin 5000) (j : Fin 128) :
    k1_pay1 x0 x1 (ix2 r j) = Cert.Spec.mm x0 x1 r j := by
  unfold k1_pay1
  simp only [shapeCast_self]
  exact Idealize.ShloMosaic.MatmulAt.matmul_zero_ix2 dot_S5000x128_S128x128_S5000x128_1_0_0_1_n_n rfl rfl
    dot1_l0 dot1_l1 dot1_r0 dot1_r1 none _ _ r j

/-- Two products agree at an entry when their operands agree along the row and the column the entry reads. -/
theorem mm_congr1 {a a' n b b' : ℕ} (l : (⟨2, ![a, n]⟩ : Shape).Idx → EReal) (l' : (⟨2, ![a', n]⟩ : Shape).Idx → EReal)
    (w : (⟨2, ![n, b]⟩ : Shape).Idx → EReal) (w' : (⟨2, ![n, b']⟩ : Shape).Idx → EReal)
    (p : Fin a) (p' : Fin a') (q : Fin b) (q' : Fin b')
    (hl : ∀ k : Fin n, l (ix2 p k) = l' (ix2 p' k)) (hw : ∀ k : Fin n, w (ix2 k q) = w' (ix2 k q')) :
    Cert.Spec.mm l w p q = Cert.Spec.mm l' w' p' q' := by
  unfold Cert.Spec.mm
  exact Finset.sum_congr rfl fun k _ => congrArg₂ (· * ·) (hl k) (hw k)

/-- The index maps over the grid: the row windows sit at block (t, 0), the weight window at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (r, j) of the row window's block at point t is entry (5000·t + r, j) of its array. -/
theorem blk1_0 (c : Dev nD) (t : Fin cfg1.N) (r : Fin 5000) (j : Fin 128) (k : S50000x128.Idx)
    (hk0 : (k 0).val = 5000 * t.val + r.val) (hk1 : (k 1).val = j.val) :
    (iblk1 V c 0 t : Vec Ideal S5000x128 .f32) (ix2 r j) = (V c main_v51 : S50000x128.Idx → EReal) k := by
  obtain ⟨e0, e1, -⟩ := idx_facts1 t
  show (V c main_v51 : S50000x128.Idx → EReal) (((cfg1.win 0).blk t).view.emb (ix2 r j)) = V c main_v51 k
  refine congrArg _ ?_
  funext a; apply Fin.ext
  match a with
  | ⟨0, _⟩ => show win1_0.index t (0 : Fin 2) * 5000 + 1 * r.val = (k 0).val; rw [e0, hk0]; omega
  | ⟨1, _⟩ => show win1_0.index t (1 : Fin 2) * 128 + 1 * j.val = (k 1).val; rw [e1, hk1]; omega

/-- Entry (r, j) of the weight window's block at any point is entry (r, j) of the weight array. -/
theorem blk1_1 (c : Dev nD) (t : Fin cfg1.N) (r : Fin 128) (j : Fin 128) (k : S128x128.Idx)
    (hk0 : (k 0).val = r.val) (hk1 : (k 1).val = j.val) :
    (iblk1 V c 1 t : Vec Ideal S128x128 .f32) (ix2 r j) = (V c main_v56 : S128x128.Idx → EReal) k := by
  obtain ⟨-, -, e0, e1, -⟩ := idx_facts1 t
  show (V c main_v56 : S128x128.Idx → EReal) (((cfg1.win 1).blk t).view.emb (ix2 r j)) = V c main_v56 k
  refine congrArg _ ?_
  funext a; apply Fin.ext
  match a with
  | ⟨0, _⟩ => show win1_1.index t (0 : Fin 2) * 128 + 1 * r.val = (k 0).val; rw [e0, hk0]; omega
  | ⟨1, _⟩ => show win1_1.index t (1 : Fin 2) * 128 + 1 * j.val = (k 1).val; rw [e1, hk1]; omega

/-- What the result array ends holding: the product of the two arrays as the region finds them. -/
abbrev G1 (c : Dev nD) : S50000x128.Idx → EReal :=
  Cert.Spec.proj (N := 50000) (C := 128) (D := 128) (V c main_v51) (V c main_v56)

/-- The product at any index: the entry at the index's row and column. -/
theorem proj_at (A : S50000x128.Idx → EReal) (W : S128x128.Idx → EReal) (k : S50000x128.Idx) :
    Cert.Spec.proj (N := 50000) (C := 128) (D := 128) A W k = Cert.Spec.mm A W (Cert.Lib.rowOf k) (Cert.Lib.colOf k) := rfl

/-- What point t writes back is block t of the product. -/
theorem flushed1_eq (c : Dev nD) (t : Fin cfg1.N) :
    (dat1 (F := Ideal) V c).flushed 2 t = ((cfg1.win 2).blk t).view.read (Elt Ideal) (G1 V c) := by
  show (cfg1.win 2).cut (grid1.coords t) ((dat1 (F := Ideal) V c).after 2 t) = _
  rw [after1_2]
  unfold out1_2
  rw [View.canon_unit_zero hz1]
  simp only [View.ld_unit_zero (S := S5000x128) hz1, View.ld_unit_zero (S := S128x128) hz1]
  obtain ⟨-, -, -, -, e0, e1⟩ := idx_facts1 t
  funext y
  obtain ⟨r, j, rfl⟩ : ∃ (r : Fin 5000) (j : Fin 128), y = ix2 r j := ⟨y 0, y 1, eq_ix2 y⟩
  show k1_pay1 (iblk1 V c 0 t) (iblk1 V c 1 t) (ix2 r j)
    = G1 V c (((cfg1.win 2).blk t).view.emb (ix2 r j))
  refine (pay1_at _ _ r j).trans ?_
  have hk0 : ((((cfg1.win 2).blk t).view.emb (ix2 r j) : S50000x128.Idx) 0).val = 5000 * t.val + r.val := by
    show win1_2.index t (0 : Fin 2) * 5000 + 1 * r.val = 5000 * t.val + r.val
    rw [e0]; omega
  have hk1 : ((((cfg1.win 2).blk t).view.emb (ix2 r j) : S50000x128.Idx) 1).val = j.val := by
    show win1_2.index t (1 : Fin 2) * 128 + 1 * j.val = j.val
    rw [e1]; omega
  refine Eq.trans ?_ (proj_at (V c main_v51) (V c main_v56) (((cfg1.win 2).blk t).view.emb (ix2 r j))).symm
  exact mm_congr1 _ _ _ _ r _ j _ (fun k => blk1_0 V c t r k _ hk0 rfl) (fun k => blk1_1 V c t k j _ rfl hk1)

/-- An index of the result is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v57).slice (win1_2.rect t)).set ↔ _
  rw [View.set_slice_whole, Rect.mem_set_unit]
  exact Iff.rfl

/-- Every entry of the result is in some point's block: row p is in the block of point p / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, e0, e1⟩ := idx_facts1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    rw [e0, ht]; omega
  | ⟨1, _⟩ =>
    show win1_2.index t (1 : Fin 2) * 128 ≤ (i 1).val ∧ (i 1).val < win1_2.index t (1 : Fin 2) * 128 + 128
    rw [e1]; omega

/-- The result array after the region: the product of the two arrays as the region found them. -/
theorem final1 (c : Dev nD) :
    (dat1 (F := Ideal) V c).arrAt 2 cfg1.N
      = Cert.Spec.proj (N := 50000) (C := 128) (D := 128) (V c main_v51) (V c main_v56) :=
  (dat1 (F := Ideal) V c).arrAt_eq_of_cover 2 (G1 V c) (fun t _ => flushed1_eq V c t) cover1

end Cert.KernelIdeal.KVal

end
-- ==== Proof.KRegion2.lean ====
/-
  The third kernel region (the closing sum), from its blocks to the whole array.

  The region runs over ten grid points. At point t it reads rows 5000·t … 5000·t + 4999 of two [50000, 64] arrays and the
  whole [1, 64] bias row, and stores, entry by entry, (a + b) + bias into the same rows of the result. This module reads
  the stored value at one entry (`pay2_at`), reads each window's block as entries of its array (`blk2_0`, `blk2_1`,
  `blk2_2`), shows that what point t writes back is block t of `Cert.Spec.fin` of the three arrays (`flushed2_eq`), that
  the ten row blocks cover the result (`cover2`), and so that the result array ends holding `Cert.Spec.fin` of the three
  arrays as the region found them (`final2`).
-/
import proofs.«137467_j84954453114994_2_alg».proof.Proof.Gen.KernelIdeal.Frame
import proofs.«137467_j84954453114994_2_alg».proof.Proof.Spec
import proofs.«137467_j84954453114994_2_alg».proof.Proof.LibMatmulAt
import Idealize.ShloMosaic.Lib.Pipeline.Value
import Idealize.ShloMosaic.Lib.ValueIdx
import Idealize.ShloMosaic.Lib.ValueLayout

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The stored value at row r, column j: the two row blocks added, plus the bias row's entry j. -/
theorem pay2_at (x0 x1 : Vec Ideal S5000x64 .f32) (x2 : Vec Ideal S1x64 .f32) (r : Fin 5000) (j : Fin 64) :
    k2_pay1 x0 x1 x2 (ix2 r j) = (x0 (ix2 r j) + x1 (ix2 r j)) + x2 (ix2 (0 : Fin 1) j) := by
  unfold k2_pay1
  simp only [shapeCast_self]
  rw [addf_apply, addf_apply, broadcastTo_1b_ab_apply]

/-- The index maps over the grid: the row windows sit at block (t, 0), the bias window at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (r, j) of the first window's block at point t is entry (5000·t + r, j) of its array. -/
theorem blk2_0 (c : Dev nD) (t : Fin cfg2.N) (r : Fin 5000) (j : Fin 64) (k : S50000x64.Idx)
    (hk0 : (k 0).val = 5000 * t.val + r.val) (hk1 : (k 1).val = j.val) :
    (iblk2 V c 0 t : Vec Ideal S5000x64 .f32) (ix2 r j) = (V c main_v58 : S50000x64.Idx → EReal) k := by
  obtain ⟨e0, e1, -⟩ := idx_facts2 t
  show (V c main_v58 : S50000x64.Idx → EReal) (((cfg2.win 0).blk t).view.emb (ix2 r j)) = V c main_v58 k
  refine congrArg _ ?_
  funext a; apply Fin.ext
  match a with
  | ⟨0, _⟩ => show win2_0.index t (0 : Fin 2) * 5000 + 1 * r.val = (k 0).val; rw [e0, hk0]; omega
  | ⟨1, _⟩ => show win2_0.index t (1 : Fin 2) * 64 + 1 * j.val = (k 1).val; rw [e1, hk1]; omega

/-- Entry (r, j) of the second window's block at point t is entry (5000·t + r, j) of its array. -/
theorem blk2_1 (c : Dev nD) (t : Fin cfg2.N) (r : Fin 5000) (j : Fin 64) (k : S50000x64.Idx)
    (hk0 : (k 0).val = 5000 * t.val + r.val) (hk1 : (k 1).val = j.val) :
    (iblk2 V c 1 t : Vec Ideal S5000x64 .f32) (ix2 r j) = (V c main_v74 : S50000x64.Idx → EReal) k := by
  obtain ⟨-, -, e0, e1, -⟩ := idx_facts2 t
  show (V c main_v74 : S50000x64.Idx → EReal) (((cfg2.win 1).blk t).view.emb (ix2 r j)) = V c main_v74 k
  refine congrArg _ ?_
  funext a; apply Fin.ext
  match a with
  | ⟨0, _⟩ => show win2_1.index t (0 : Fin 2) * 5000 + 1 * r.val = (k 0).val; rw [e0, hk0]; omega
  | ⟨1, _⟩ => show win2_1.index t (1 : Fin 2) * 64 + 1 * j.val = (k 1).val; rw [e1, hk1]; omega

/-- Entry (0, j) of the bias window's block at any point is entry (0, j) of the bias row. -/
theorem blk2_2 (c : Dev nD) (t : Fin cfg2.N) (j : Fin 64) (k : S1x64.Idx)
    (hk0 : (k 0).val = 0) (hk1 : (k 1).val = j.val) :
    (iblk2 V c 2 t : Vec Ideal S1x64 .f32) (ix2 (0 : Fin 1) j) = (V c main_v75 : S1x64.Idx → EReal) k := by
  obtain ⟨-, -, -, -, e0, e1, -⟩ := idx_facts2 t
  show (V c main_v75 : S1x64.Idx → EReal) (((cfg2.win 2).blk t).view.emb (ix2 (0 : Fin 1) j)) = V c main_v75 k
  refine congrArg _ ?_
  funext a; apply Fin.ext
  match a with
  | ⟨0, _⟩ => show win2_2.index t (0 : Fin 2) * 1 + 1 * (0 : Fin 1).val = (k 0).val; rw [e0, hk0]; rfl
  | ⟨1, _⟩ => show win2_2.index t (1 : Fin 2) * 64 + 1 * j.val = (k 1).val; rw [e1, hk1]; omega

/-- What the result array ends holding: the closing sum of the three arrays as the region finds them. -/
abbrev G2 (c : Dev nD) : S50000x64.Idx → EReal :=
  Cert.Spec.fin (N := 50000) (D := 64) (V c main_v58) (V c main_v74) (V c main_v75)

/-- The closing sum at any index: the two arrays there added, plus the bias row's entry at the index's column. -/
theorem fin_at (A B : S50000x64.Idx → EReal) (bias : S1x64.Idx → EReal) (k : S50000x64.Idx) :
    Cert.Spec.fin (N := 50000) (D := 64) A B bias k = (A k + B k) + bias (ix2 (0 : Fin 1) (Cert.Lib.colOf k)) := rfl

/-- What point t writes back is block t of the closing sum. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero hz2]
  simp only [View.ld_unit_zero (S := S5000x64) hz2, View.ld_unit_zero (S := S1x64) hz2]
  obtain ⟨-, -, -, -, -, -, e0, e1⟩ := idx_facts2 t
  funext y
  obtain ⟨r, j, rfl⟩ : ∃ (r : Fin 5000) (j : Fin 64), y = ix2 r j := ⟨y 0, y 1, eq_ix2 y⟩
  show k2_pay1 (iblk2 V c 0 t) (iblk2 V c 1 t) (iblk2 V c 2 t) (ix2 r j)
    = G2 V c (((cfg2.win 3).blk t).view.emb (ix2 r j))
  refine (pay2_at _ _ _ r j).trans ?_
  have hk0 : ((((cfg2.win 3).blk t).view.emb (ix2 r j) : S50000x64.Idx) 0).val = 5000 * t.val + r.val := by
    show win2_3.index t (0 : Fin 2) * 5000 + 1 * r.val = 5000 * t.val + r.val
    rw [e0]; omega
  have hk1 : ((((cfg2.win 3).blk t).view.emb (ix2 r j) : S50000x64.Idx) 1).val = j.val := by
    show win2_3.index t (1 : Fin 2) * 64 + 1 * j.val = j.val
    rw [e1]; omega
  refine Eq.trans ?_ (fin_at (V c main_v58) (V c main_v74) (V c main_v75) (((cfg2.win 3).blk t).view.emb (ix2 r j))).symm
  exact congrArg₂ (· + ·) (congrArg₂ (· + ·) (blk2_0 V c t r j _ hk0 hk1) (blk2_1 V c t r j _ hk0 hk1))
    (blk2_2 V c t j _ rfl hk1)

/-- An index of the result is in point t's block iff each coordinate is in the block's range on its axis. -/
theorem mem_blk2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v76).slice (win2_3.rect t)).set ↔ _
  rw [View.set_slice_whole, Rect.mem_set_unit]
  exact Iff.rfl

/-- Every entry of the result is in some point's block: row p is in the block of point p / 5000. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, e0, e1⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 64 ≤ (i 1).val ∧ (i 1).val < win2_3.index t (1 : Fin 2) * 64 + 64
    rw [e1]; omega

/-- The result array after the region: the closing sum of the three arrays as the region found them. -/
theorem final2 (c : Dev nD) :
    (dat2 (F := Ideal) V c).arrAt 3 cfg2.N
      = Cert.Spec.fin (N := 50000) (D := 64) (V c main_v58) (V c main_v74) (V c main_v75) :=
  (dat2 (F := Ideal) V c).arrAt_eq_of_cover 3 (G2 V c) (fun t _ => flushed2_eq V c t) cover2

end Cert.KernelIdeal.KVal

end
-- ==== Proof.RefValue.lean ====
/-
  The reference program's result read entry by entry.

  The reference computes  h = max (x · W1₀ + prop(x) · W1₁ + b1, 0)  and  out = h · W2₀ + prop(h) · W2₁ + b2, where prop is
  the propagation along the edges with the normalised weights. Entry by entry: a product with a weight matrix is the sum
  over the contracted coordinate, prop is `Cert.Spec.propAt`, a bias row is read at its column.
-/
import proofs.«137467_j84954453114994_2_alg».proof.Proof.Gen.ReferenceIdeal.Read
import proofs.«137467_j84954453114994_2_alg».proof.Proof.Spec

set_option maxRecDepth 16384

noncomputable section

open scoped BigOperators

namespace Cert.RefValue

open Cert.ReferenceIdeal Cert.ReferenceIdeal.Read Cert.Spec Cert.Lib
open Idealize.ShloMosaic Idealize.ShloMosaic.ValueIdx

/-- The edge weights after normalisation, the source rows' index words and the target nodes' index words. -/
abbrev NRM (ei : (⟨S2x800000, .i32⟩ : BufTy).Contents (Elt Ideal)) (ew : (⟨S800000, .f32⟩ : BufTy).Contents (Elt Ideal)) :
    (⟨S800000, .f32⟩ : BufTy).Contents (Elt Ideal) := val_main_v30 (F := Ideal) ei ew
abbrev SIDX (ei : (⟨S2x800000, .i32⟩ : BufTy).Contents (Elt Ideal)) : (⟨S800000x1, .i32⟩ : BufTy).Contents (Elt Ideal) :=
  val_main_v40 (F := Ideal) ei
abbrev DIDX (ei : (⟨S2x800000, .i32⟩ : BufTy).Contents (Elt Ideal)) : (⟨S800000x1, .i32⟩ : BufTy).Contents (Elt Ideal) :=
  val_main_v45 (F := Ideal) ei

theorem hN : 0 < 50000 := by decide

theorem rowScatter128 : IsRowScatter scatter_S50000x128_S800000x1_S800000x128_1_0_0_1 := ⟨rfl, rfl, rfl, rfl⟩
theorem rowGather128 : IsRowGather gather_S50000x128_S800000x1_S800000x128_1_0_n_n_0_1_1128 := ⟨rfl, rfl, rfl, rfl, rfl, rfl, rfl⟩

/-- The second layer reads the same index words as the first. -/
theorem sidx2_eq (ei : (⟨S2x800000, .i32⟩ : BufTy).Contents (Elt Ideal)) : val_main_v64 (F := Ideal) ei = SIDX ei := rfl
theorem didx2_eq (ei : (⟨S2x800000, .i32⟩ : BufTy).Contents (Elt Ideal)) : val_main_v69 (F := Ideal) ei = DIDX ei := rfl

/-- prop(x) at (p, k). -/
theorem prop1_at (x0 : (⟨S50000x128, .f32⟩ : BufTy).Contents (Elt Ideal)) (ei : (⟨S2x800000, .i32⟩ : BufTy).Contents (Elt Ideal))
    (ew : (⟨S800000, .f32⟩ : BufTy).Contents (Elt Ideal)) (p : Fin 50000) (k : Fin 128) :
    val_main_v46 (F := Ideal) x0 ei ew (ix2 p k) = propAt hN (NRM ei ew) (SIDX ei) (DIDX ei) x0 p k := by
  unfold val_main_v46 val_main_v44 val_main_cst_9 val_main_v43 val_main_v42 val_main_v34 val_main_v41
  exact prop_apply (φ := .f32) hN _ rowScatter128 _ rowGather128 _ _ _ (NRM ei ew) (SIDX ei) (DIDX ei) x0 p k

/-! ## The operand indices of the four products and the two bias rows, at explicit coordinates -/

theorem lidx33 (p : Fin 50000) (j k : Fin 128) : lidx_main_v33 (ix2 p j) k = ix2 p k :=
  funext fun a => Fin.ext (by match a with | ⟨0, _⟩ => rfl | ⟨1, _⟩ => rfl)
theorem ridx33 (p : Fin 50000) (j k : Fin 128) : ridx_main_v33 (ix2 p j) k = ix2 k j :=
  funext fun a => Fin.ext (by match a with | ⟨0, _⟩ => rfl | ⟨1, _⟩ => rfl)
theorem lidx49 (p : Fin 50000) (j k : Fin 128) : lidx_main_v49 (ix2 p j) k = ix2 p k :=
  funext fun a => Fin.ext (by match a with | ⟨0, _⟩ => rfl | ⟨1, _⟩ => rfl)
theorem ridx49 (p : Fin 50000) (j k : Fin 128) : ridx_main_v49 (ix2 p j) k = ix2 k j :=
  funext fun a => Fin.ext (by match a with | ⟨0, _⟩ => rfl | ⟨1, _⟩ => rfl)
theorem lidx57 (p : Fin 50000) (q : Fin 64) (k : Fin 128) : lidx_main_v57 (ix2 p q) k = ix2 p k :=
  funext fun a => Fin.ext (by match a with | ⟨0, _⟩ => rfl | ⟨1, _⟩ => rfl)
theorem ridx57 (p : Fin 50000) (q : Fin 64) (k : Fin 128) : ridx_main_v57 (ix2 p q) k = ix2 k q :=
  funext fun a => Fin.ext (by match a with | ⟨0, _⟩ => rfl | ⟨1, _⟩ => rfl)
theorem lidx73 (p : Fin 50000) (q : Fin 64) (k : Fin 128) : lidx_main_v73 (ix2 p q) k = ix2 p k :=
  funext fun a => Fin.ext (by match a with | ⟨0, _⟩ => rfl | ⟨1, _⟩ => rfl)
theorem ridx73 (p : Fin 50000) (q : Fin 64) (k : Fin 128) : ridx_main_v73 (ix2 p q) k = ix2 k q :=
  funext fun a => Fin.ext (by match a with | ⟨0, _⟩ => rfl | ⟨1, _⟩ => rfl)
theorem bias1_idx (p : Fin 50000) (j : Fin 128) : idx_main_v51 (idx_main_v52 (ix2 p j)) = ix1 j :=
  funext fun a => Fin.ext (by match a with | ⟨0, _⟩ => rfl)
theorem bias2_idx (p : Fin 50000) (q : Fin 64) : idx_main_v75 (idx_main_v76 (ix2 p q)) = ix1 q :=
  funext fun a => Fin.ext (by match a with | ⟨0, _⟩ => rfl)

/-- The hidden layer at (p, j): max (x · W1₀ + prop(x) · W1₁ + b1, 0). -/
theorem h_at (x0 : (⟨S50000x128, .f32⟩ : BufTy).Contents (Elt Ideal)) (ei : (⟨S2x800000, .i32⟩ : BufTy).Contents (Elt Ideal))
    (ew : (⟨S800000, .f32⟩ : BufTy).Contents (Elt Ideal)) (x3 : (⟨S2x128x128, .f32⟩ : BufTy).Contents (Elt Ideal))
    (x4 : (⟨S128, .f32⟩ : BufTy).Contents (Elt Ideal)) (p : Fin 50000) (j : Fin 128) :
    val_main_v54 (F := Ideal) x0 ei ew x3 x4 (ix2 p j)
      = max ((mm x0 (val_main_v32 (F := Ideal) x3) p j
              + mm (val_main_v46 (F := Ideal) x0 ei ew) (val_main_v48 (F := Ideal) x3) p j) + x4 (ix1 j)) zeroW := by
  rw [val_main_v54_apply, val_main_v53_apply, val_main_v50_apply, val_main_v33_apply, val_main_v49_apply,
    val_main_v52_apply, val_main_v51_apply, val_main_call2_v0_apply, val_main_call2_cst_apply]
  simp only [lidx33, ridx33, lidx49, ridx49, bias1_idx]
  rfl

/-- prop(h) at (p, k). -/
theorem prop2_at (x0 : (⟨S50000x128, .f32⟩ : BufTy).Contents (Elt Ideal)) (ei : (⟨S2x800000, .i32⟩ : BufTy).Contents (Elt Ideal))
    (ew : (⟨S800000, .f32⟩ : BufTy).Contents (Elt Ideal)) (x3 : (⟨S2x128x128, .f32⟩ : BufTy).Contents (Elt Ideal))
    (x4 : (⟨S128, .f32⟩ : BufTy).Contents (Elt Ideal)) (p : Fin 50000) (k : Fin 128) :
    val_main_v70 (F := Ideal) x0 ei ew x3 x4 (ix2 p k)
      = propAt hN (NRM ei ew) (SIDX ei) (DIDX ei) (val_main_v54 (F := Ideal) x0 ei ew x3 x4) p k := by
  unfold val_main_v70 val_main_v68 val_main_cst_12 val_main_v67 val_main_v66 val_main_v58 val_main_v65
  exact prop_apply (φ := .f32) hN _ rowScatter128 _ rowGather128 _ _ _ (NRM ei ew) (SIDX ei) (DIDX ei)
    (val_main_v54 (F := Ideal) x0 ei ew x3 x4) p k

/-- The result at (p, q): h · W2₀ + prop(h) · W2₁ + b2. -/
theorem out_at (x0 : (⟨S50000x128, .f32⟩ : BufTy).Contents (Elt Ideal)) (ei : (⟨S2x800000, .i32⟩ : BufTy).Contents (Elt Ideal))
    (ew : (⟨S800000, .f32⟩ : BufTy).Contents (Elt Ideal)) (x3 : (⟨S2x128x128, .f32⟩ : BufTy).Contents (Elt Ideal))
    (x4 : (⟨S128, .f32⟩ : BufTy).Contents (Elt Ideal)) (x5 : (⟨S2x128x64, .f32⟩ : BufTy).Contents (Elt Ideal))
    (x6 : (⟨S64, .f32⟩ : BufTy).Contents (Elt Ideal)) (p : Fin 50000) (q : Fin 64) :
    val_main_v77 (F := Ideal) x0 ei ew x3 x4 x5 x6 (ix2 p q)
      = (mm (val_main_v54 (F := Ideal) x0 ei ew x3 x4) (val_main_v56 (F := Ideal) x5) p q
          + mm (val_main_v70 (F := Ideal) x0 ei ew x3 x4) (val_main_v72 (F := Ideal) x5) p q) + x6 (ix1 q) := by
  rw [val_main_v77_apply, val_main_v74_apply, val_main_v57_apply, val_main_v73_apply, val_main_v76_apply, val_main_v75_apply]
  simp only [lidx57, ridx57, lidx73, ridx73, bias2_idx]
  rfl

end Cert.RefValue

end
-- ==== Proof.LibConcatCols.lean ====
/-
  Concatenations of matrices read at an entry.

  Side by side (along the columns): two blocks [a, n₁] | [a, n₂], and three blocks [a, n₁] | [a, n₂] | [a, n₃]; entry
  (p, j) of the result is entry (p, j − the widths before it) of the block whose span holds column j.
  One under another (along the rows): three blocks of [r₁, b], [r₂, b], [r₃, b] rows.
-/
import Idealize.ShloMosaic.Lib.Pipeline.Value
import Idealize.ShloMosaic.Lib.ValueIdx

namespace Cert.Lib

open Idealize.ShloMosaic Idealize.ShloMosaic.ValueIdx

variable {α : Type} {a n n₁ n₂ n₃ : Nat}

/-- Two blocks side by side, read in the left block. -/
theorem concat2_cols_left (x : (⟨2, ![a, n₁]⟩ : Shape).Idx → α) (y : (⟨2, ![a, n₂]⟩ : Shape).Idx → α)
    (h : Shape.Concatenates [⟨2, ![a, n₁]⟩, ⟨2, ![a, n₂]⟩] ⟨2, ![a, n]⟩ 1) (p : Fin a) (j : Fin n) (q : Fin n₁)
    (hq : q.val = j.val) :
    concatenate ⟨2, ![a, n]⟩ 1 [⟨⟨2, ![a, n₁]⟩, x⟩, ⟨⟨2, ![a, n₂]⟩, y⟩] h (ix2 p j) = x (ix2 p q) :=
  concatenate_apply_piece (t := ⟨2, ![a, n]⟩) 1 [⟨⟨2, ![a, n₁]⟩, x⟩, ⟨⟨2, ![a, n₂]⟩, y⟩] h (ix2 p j) 0 (by simp) _ x rfl rfl 0 rfl (ix2 p q)
    (fun b hb => by
      match b with
      | ⟨0, _⟩ => rfl
      | ⟨1, _⟩ => exact absurd rfl hb)
    (by show 0 + q.val = j.val; omega)

/-- Two blocks side by side, read in the right block. -/
theorem concat2_cols_right (x : (⟨2, ![a, n₁]⟩ : Shape).Idx → α) (y : (⟨2, ![a, n₂]⟩ : Shape).Idx → α)
    (h : Shape.Concatenates [⟨2, ![a, n₁]⟩, ⟨2, ![a, n₂]⟩] ⟨2, ![a, n]⟩ 1) (p : Fin a) (j : Fin n) (q : Fin n₂)
    (hq : n₁ + q.val = j.val) :
    concatenate ⟨2, ![a, n]⟩ 1 [⟨⟨2, ![a, n₁]⟩, x⟩, ⟨⟨2, ![a, n₂]⟩, y⟩] h (ix2 p j) = y (ix2 p q) :=
  concatenate_apply_piece (t := ⟨2, ![a, n]⟩) 1 [⟨⟨2, ![a, n₁]⟩, x⟩, ⟨⟨2, ![a, n₂]⟩, y⟩] h (ix2 p j) 1 (by simp) _ y rfl rfl n₁
    (by simp) (ix2 p q)
    (fun b hb => by
      match b with
      | ⟨0, _⟩ => rfl
      | ⟨1, _⟩ => exact absurd rfl hb)
    (by show n₁ + q.val = j.val; omega)

/-- Three blocks side by side, read in the first. -/
theorem concat3_cols_fst (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₁)
    (hq : q.val = j.val) :
    concatenate ⟨2, ![a, n]⟩ 1 [⟨⟨2, ![a, n₁]⟩, x⟩, ⟨⟨2, ![a, n₂]⟩, y⟩, ⟨⟨2, ![a, n₃]⟩, z⟩] h (ix2 p j) = x (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 0 (by simp) _ x rfl rfl 0 rfl (ix2 p q)
    (fun b hb => by
      match b with
      | ⟨0, _⟩ => rfl
      | ⟨1, _⟩ => exact absurd rfl hb)
    (by show 0 + q.val = j.val; omega)

/-- Three blocks side by side, read in the second. -/
theorem concat3_cols_snd (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₂)
    (hq : n₁ + q.val = j.val) :
    concatenate ⟨2, ![a, n]⟩ 1 [⟨⟨2, ![a, n₁]⟩, x⟩, ⟨⟨2, ![a, n₂]⟩, y⟩, ⟨⟨2, ![a, n₃]⟩, z⟩] h (ix2 p j) = y (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 1 (by simp) _ y rfl rfl n₁
    (by simp) (ix2 p q)
    (fun b hb => by
      match b with
      | ⟨0, _⟩ => rfl
      | ⟨1, _⟩ => exact absurd rfl hb)
    (by show n₁ + q.val = j.val; omega)

/-- Three blocks side by side, read in the third. -/
theorem concat3_cols_thd (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₃)
    (hq : n₁ + n₂ + q.val = j.val) :
    concatenate ⟨2, ![a, n]⟩ 1 [⟨⟨2, ![a, n₁]⟩, x⟩, ⟨⟨2, ![a, n₂]⟩, y⟩, ⟨⟨2, ![a, n₃]⟩, z⟩] h (ix2 p j) = z (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 2 (by simp) _ z rfl rfl (n₁ + n₂)
    (by simp) (ix2 p q)
    (fun b hb => by
      match b with
      | ⟨0, _⟩ => rfl
      | ⟨1, _⟩ => exact absurd rfl hb)
    (by show n₁ + n₂ + q.val = j.val; omega)

variable {b r₁ r₂ r₃ : Nat}

/-- Three blocks one under another, read in block `k` (of one row each when the blocks are rows). -/
theorem concat3_rows_one (x y z : (⟨2, ![1, b]⟩ : Shape).Idx → α)
    (h : Shape.Concatenates [⟨2, ![1, b]⟩, ⟨2, ![1, b]⟩, ⟨2, ![1, b]⟩] ⟨2, ![3, b]⟩ 0) (k : Fin 3) (e : Fin b) :
    concatenate ⟨2, ![3, b]⟩ 0 [⟨⟨2, ![1, b]⟩, x⟩, ⟨⟨2, ![1, b]⟩, y⟩, ⟨⟨2, ![1, b]⟩, z⟩] h (ix2 k e)
      = (![x, y, z] k) (ix2 (0 : Fin 1) e) := by
  match k with
  | ⟨0, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 0 (by simp) _ x rfl rfl 0 rfl (ix2 0 e)
      (fun c hc => by
        match c with
        | ⟨0, _⟩ => exact absurd rfl hc
        | ⟨1, _⟩ => rfl) rfl
  | ⟨1, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 1 (by simp) _ y rfl rfl 1 (by simp) (ix2 0 e)
      (fun c hc => by
        match c with
        | ⟨0, _⟩ => exact absurd rfl hc
        | ⟨1, _⟩ => rfl) rfl
  | ⟨2, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 2 (by simp) _ z rfl rfl 2 (by simp) (ix2 0 e)
      (fun c hc => by
        match c with
        | ⟨0, _⟩ => exact absurd rfl hc
        | ⟨1, _⟩ => rfl) rfl

end Cert.Lib
-- ==== Proof.KHostC.lean ====
/-
  The idealized kernel program's result array as a function of the seven argument arrays.

  The first region leaves the hidden layer h = max (x · W1₀ + prop(x) · W1₁ + b1, 0), which is the reference's hidden
  layer entry by entry. The second region multiplies h by the two halves of W2 laid side by side; the host slices the
  product in two, propagates the right half along the edges, and the third region adds the left half, the propagated
  right half and the bias row. So the result at (p, q) is  (h · W2₀)(p, q) + prop(h · W2₁)(p, q) + b2 q.
-/
import proofs.«137467_j84954453114994_2_alg».proof.Proof.KHostA
import proofs.«137467_j84954453114994_2_alg».proof.Proof.KRegion0
import proofs.«137467_j84954453114994_2_alg».proof.Proof.KRegion1
import proofs.«137467_j84954453114994_2_alg».proof.Proof.KRegion2
import proofs.«137467_j84954453114994_2_alg».proof.Proof.RefValue
import proofs.«137467_j84954453114994_2_alg».proof.Proof.LibConcatCols

set_option maxRecDepth 16384

noncomputable section

open scoped BigOperators

namespace Cert.KernelIdeal.KVal

open Cert.KernelIdeal Cert.KernelIdeal.Gen Cert.ReferenceIdeal.Read Cert.Spec Cert.Lib
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-! ## After the first region: the hidden layer -/

theorem w6_v51 : W6 m ρ c (Proc.devRef .tc main_v51)
    = layer1 (N := 50000) (C := 128) (D := 128) (V5 m ρ c main_arg0) (V5 m ρ c main_v45) (V5 m ρ c main_v47) (V5 m ρ c main_v49) (V5 m ρ c main_v50) :=
  (W6_arr m ρ c 5).trans (final0 (V5 m ρ) c)

/-- The hidden layer the first region leaves is the reference's, entry by entry. -/
theorem w6_v51_at (p : Fin 50000) (j : Fin 128) :
    W6 m ρ c (Proc.devRef .tc main_v51) (ix2 p j) = val_main_v54 (F := Ideal) (a0 m c) (a1 m c) (a2 m c) (a3 m c) (a4 m c) (ix2 p j) := by
  rw [w6_v51, layer1_ix2, Cert.RefValue.h_at]
  have e0 : V5 m ρ c main_arg0 = a0 m c := w5_a0 m ρ c
  have e47 : V5 m ρ c main_v47 = val_main_v32 (F := Ideal) (a3 m c) := w5_v47 m ρ c
  have e49 : V5 m ρ c main_v49 = val_main_v48 (F := Ideal) (a3 m c) := w5_v49 m ρ c
  have e50 : V5 m ρ c main_v50 (ix2 (0 : Fin 1) j) = a4 m c (ix1 j) := w5_v50 m ρ c j
  have e45 : ∀ k : Fin 128, V5 m ρ c main_v45 (ix2 p k) = val_main_v46 (F := Ideal) (a0 m c) (a1 m c) (a2 m c) (ix2 p k) :=
    fun k => (w5_v45 m ρ c p k).trans (Cert.RefValue.prop1_at (a0 m c) (a1 m c) (a2 m c) p k).symm
  rw [e0, e47, e49, e50]
  unfold mm
  simp only [e45]

theorem w6_v51_eq : W6 m ρ c (Proc.devRef .tc main_v51) = val_main_v54 (F := Ideal) (a0 m c) (a1 m c) (a2 m c) (a3 m c) (a4 m c) :=
  funext fun i => by rw [eq_ix2 i]; exact w6_v51_at m ρ c (i 0) (i 1)

theorem w6_a5 : W6 m ρ c (Proc.devRef .tc main_arg5) = a5 m c := (W6_of_ne m ρ c main_arg5 (by decide)).trans (w5_a5 m ρ c)
theorem w6_a6 : W6 m ρ c (Proc.devRef .tc main_arg6) = a6 m c := (W6_of_ne m ρ c main_arg6 (by decide)).trans (w5_a6 m ρ c)
theorem w6_v1 : W6 m ρ c (Proc.devRef .tc main_v1) = val_main_v1 (F := Ideal) (a1 m c) := (W6_of_ne m ρ c main_v1 (by decide)).trans (w5_v1 m ρ c)
theorem w6_v3 : W6 m ρ c (Proc.devRef .tc main_v3) = val_main_v3 (F := Ideal) (a1 m c) := (W6_of_ne m ρ c main_v3 (by decide)).trans (w5_v3 m ρ c)
theorem w6_v30 : W6 m ρ c (Proc.devRef .tc main_v30) = val_main_v30 (F := Ideal) (a1 m c) (a2 m c) := (W6_of_ne m ρ c main_v30 (by decide)).trans (w5_v30 m ρ c)

/-! ## At the second region's entry: the hidden layer and the two halves of W2 side by side -/

theorem w7_v51 : W7 m ρ c (Proc.devRef .tc main_v51) = val_main_v54 (F := Ideal) (a0 m c) (a1 m c) (a2 m c) (a3 m c) (a4 m c) := by
  have h := w6_v51_eq m ρ c
  show StableHlo.after (hostOps1 (F := Ideal)) (W6 m ρ c) (Proc.devRef .tc main_v51) = _
  generalize W6 m ρ c = Wv at h ⊢
  after_results
  exact h
/-- The left half of the concatenated weights is W2₀ … -/
theorem w7_v56_left (k : Fin 128) (q : Fin 64) (j : Fin 128) (hj : q.val = j.val) :
    W7 m ρ c (Proc.devRef .tc main_v56) (ix2 k j) = val_main_v56 (F := Ideal) (a5 m c) (ix2 k q) := by
  have h := w6_a5 m ρ c
  show StableHlo.after (hostOps1 (F := Ideal)) (W6 m ρ c) (Proc.devRef .tc main_v56) (ix2 k j) = _
  generalize W6 m ρ c = Wv at h ⊢
  after_results
  rw [h]
  exact concat2_cols_left (n₁ := 64) (n₂ := 64) _ _ _ k j q hj
/-- … and the right half is W2₁. -/
theorem w7_v56_right (k : Fin 128) (q : Fin 64) (j : Fin 128) (hj : 64 + q.val = j.val) :
    W7 m ρ c (Proc.devRef .tc main_v56) (ix2 k j) = val_main_v72 (F := Ideal) (a5 m c) (ix2 k q) := by
  have h := w6_a5 m ρ c
  show StableHlo.after (hostOps1 (F := Ideal)) (W6 m ρ c) (Proc.devRef .tc main_v56) (ix2 k j) = _
  generalize W6 m ρ c = Wv at h ⊢
  after_results
  rw [h]
  exact concat2_cols_right (n₁ := 64) (n₂ := 64) _ _ _ k j q hj
theorem w7_a6 : W7 m ρ c (Proc.devRef .tc main_arg6) = a6 m c := by
  have h := w6_a6 m ρ c
  show StableHlo.after (hostOps1 (F := Ideal)) (W6 m ρ c) (Proc.devRef .tc main_arg6) = _
  generalize W6 m ρ c = Wv at h ⊢
  after_results
  exact h
theorem w7_v1 : W7 m ρ c (Proc.devRef .tc main_v1) = val_main_v1 (F := Ideal) (a1 m c) := by
  have h := w6_v1 m ρ c
  show StableHlo.after (hostOps1 (F := Ideal)) (W6 m ρ c) (Proc.devRef .tc main_v1) = _
  generalize W6 m ρ c = Wv at h ⊢
  after_results
  exact h
theorem w7_v3 : W7 m ρ c (Proc.devRef .tc main_v3) = val_main_v3 (F := Ideal) (a1 m c) := by
  have h := w6_v3 m ρ c
  show StableHlo.after (hostOps1 (F := Ideal)) (W6 m ρ c) (Proc.devRef .tc main_v3) = _
  generalize W6 m ρ c = Wv at h ⊢
  after_results
  exact h
theorem w7_v30 : W7 m ρ c (Proc.devRef .tc main_v30) = val_main_v30 (F := Ideal) (a1 m c) (a2 m c) := by
  have h := w6_v30 m ρ c
  show StableHlo.after (hostOps1 (F := Ideal)) (W6 m ρ c) (Proc.devRef .tc main_v30) = _
  generalize W6 m ρ c = Wv at h ⊢
  after_results
  exact h

/-! ## After the second region: h times the concatenated weights -/

theorem w8_v57 : W8 m ρ c (Proc.devRef .tc main_v57)
    = proj (N := 50000) (C := 128) (D := 128) (V7 m ρ c main_v51) (V7 m ρ c main_v56) :=
  (W8_arr m ρ c 2).trans (final1 (V7 m ρ) c)

theorem w8_v57_left (p : Fin 50000) (q : Fin 64) (j : Fin 128) (hj : q.val = j.val) :
    W8 m ρ c (Proc.devRef .tc main_v57) (ix2 p j) = mm (val_main_v54 (F := Ideal) (a0 m c) (a1 m c) (a2 m c) (a3 m c) (a4 m c)) (val_main_v56 (F := Ideal) (a5 m c)) p q := by
  rw [w8_v57, proj_ix2]
  have e51 : V7 m ρ c main_v51 = val_main_v54 (F := Ideal) (a0 m c) (a1 m c) (a2 m c) (a3 m c) (a4 m c) := w7_v51 m ρ c
  have e56 : ∀ k : Fin 128, V7 m ρ c main_v56 (ix2 k j) = val_main_v56 (F := Ideal) (a5 m c) (ix2 k q) :=
    fun k => w7_v56_left m ρ c k q j hj
  rw [e51]
  unfold mm
  simp only [e56]
theorem w8_v57_right (p : Fin 50000) (q : Fin 64) (j : Fin 128) (hj : 64 + q.val = j.val) :
    W8 m ρ c (Proc.devRef .tc main_v57) (ix2 p j) = mm (val_main_v54 (F := Ideal) (a0 m c) (a1 m c) (a2 m c) (a3 m c) (a4 m c)) (val_main_v72 (F := Ideal) (a5 m c)) p q := by
  rw [w8_v57, proj_ix2]
  have e51 : V7 m ρ c main_v51 = val_main_v54 (F := Ideal) (a0 m c) (a1 m c) (a2 m c) (a3 m c) (a4 m c) := w7_v51 m ρ c
  have e56 : ∀ k : Fin 128, V7 m ρ c main_v56 (ix2 k j) = val_main_v72 (F := Ideal) (a5 m c) (ix2 k q) :=
    fun k => w7_v56_right m ρ c k q j hj
  rw [e51]
  unfold mm
  simp only [e56]
theorem w8_a6 : W8 m ρ c (Proc.devRef .tc main_arg6) = a6 m c := (W8_of_ne m ρ c main_arg6 (by decide)).trans (w7_a6 m ρ c)
theorem w8_v1 : W8 m ρ c (Proc.devRef .tc main_v1) = val_main_v1 (F := Ideal) (a1 m c) := (W8_of_ne m ρ c main_v1 (by decide)).trans (w7_v1 m ρ c)
theorem w8_v3 : W8 m ρ c (Proc.devRef .tc main_v3) = val_main_v3 (F := Ideal) (a1 m c) := (W8_of_ne m ρ c main_v3 (by decide)).trans (w7_v3 m ρ c)
theorem w8_v30 : W8 m ρ c (Proc.devRef .tc main_v30) = val_main_v30 (F := Ideal) (a1 m c) (a2 m c) := (W8_of_ne m ρ c main_v30 (by decide)).trans (w7_v30 m ρ c)

/-! ## At the third region's entry: the left half, the propagated right half, the bias row -/

/-- The left half of the product. -/
theorem w9_v58 (p : Fin 50000) (q : Fin 64) :
    W9 m ρ c (Proc.devRef .tc main_v58) (ix2 p q) = mm (val_main_v54 (F := Ideal) (a0 m c) (a1 m c) (a2 m c) (a3 m c) (a4 m c)) (val_main_v56 (F := Ideal) (a5 m c)) p q := by
  have h := fun j hj => w8_v57_left m ρ c p q j hj
  show StableHlo.after (hostOps2 (F := Ideal)) (W8 m ρ c) (Proc.devRef .tc main_v58) (ix2 p q) = _
  generalize W8 m ρ c = Wv at h ⊢
  after_results
  refine (extractStridedSlice_apply ![0, 0] _ _ (ix2 p q) (ix2 p (⟨q.val, by omega⟩ : Fin 128)) (fun a => ?_)).trans (h _ rfl)
  match a with
  | ⟨0, _⟩ => show p.val = 0 + p.val; omega
  | ⟨1, _⟩ => show q.val = 0 + q.val; omega

set_option maxHeartbeats 4000000 in
/-- The right half of the product, propagated along the edges. -/
theorem w9_v74 (p : Fin 50000) (q : Fin 64) :
    W9 m ρ c (Proc.devRef .tc main_v74) (ix2 p q)
      = propAt hN (val_main_v30 (F := Ideal) (a1 m c) (a2 m c)) (val_main_v40 (F := Ideal) (a1 m c)) (val_main_v45 (F := Ideal) (a1 m c))
          (fun i : (⟨2, ![50000, 64]⟩ : Shape).Idx => mm (val_main_v54 (F := Ideal) (a0 m c) (a1 m c) (a2 m c) (a3 m c) (a4 m c)) (val_main_v72 (F := Ideal) (a5 m c)) (rowOf i) (colOf i)) p q := by
  have h := fun (r : Fin 50000) (q' : Fin 64) j hj => w8_v57_right m ρ c r q' j hj
  have h1 := w8_v1 m ρ c
  have h3 := w8_v3 m ρ c
  have h30 := w8_v30 m ρ c
  show StableHlo.after (hostOps2 (F := Ideal)) (W8 m ρ c) (Proc.devRef .tc main_v74) (ix2 p q) = _
  generalize W8 m ρ c = Wv at h h1 h3 h30 ⊢
  after_results_simp
  rw [h1, h3, h30]
  refine (prop_apply_narrow hN _ krs64 _ krg64 _ _ _ _ _ _ _ _ p q).trans ?_
  unfold val_main_v40 val_main_v39 val_main_v36 val_main_v38 val_main_v35 val_main_v37 val_main_c_7 val_main_c_8 val_main_v45
  unfold propAt
  refine congrArg _ (Finset.sum_congr rfl fun r _ => congrArg _ ?_)
  refine (extractStridedSlice_apply ![0, 64] _ _ (ix2 _ q) (ix2 _ (⟨64 + q.val, by omega⟩ : Fin 128)) (fun a => ?_)).trans (h _ q _ rfl)
  match a with
  | ⟨0, _⟩ => exact (Nat.zero_add _).symm
  | ⟨1, _⟩ => show 64 + q.val = 64 + q.val; rfl

/-- The second bias vector laid down as one row, read at column q. -/
theorem w9_v75 (q : Fin 64) : W9 m ρ c (Proc.devRef .tc main_v75) (ix2 (0 : Fin 1) q) = a6 m c (ix1 q) := by
  have h6 := w8_a6 m ρ c
  show StableHlo.after (hostOps2 (F := Ideal)) (W8 m ρ c) (Proc.devRef .tc main_v75) (ix2 (0 : Fin 1) q) = _
  generalize W8 m ρ c = Wv at h6 ⊢
  after_results
  rw [h6]
  exact shapeCast_a_1a_apply (a6 m c) _ (0 : Fin 1) q

/-! ## The result -/

theorem w10_v76 : W10 m ρ c (Proc.devRef .tc main_v76)
    = fin (N := 50000) (D := 64) (V9 m ρ c main_v58) (V9 m ρ c main_v74) (V9 m ρ c main_v75) :=
  (W10_arr m ρ c 3).trans (final2 (V9 m ρ) c)

/-- The kernel program's result at (p, q): (h · W2₀)(p, q) + prop(h · W2₁)(p, q) + b2 q. -/
theorem out_at (p : Fin 50000) (q : Fin 64) :
    W10 m ρ c (Proc.devRef .tc main_v76) (ix2 p q)
      = (mm (val_main_v54 (F := Ideal) (a0 m c) (a1 m c) (a2 m c) (a3 m c) (a4 m c)) (val_main_v56 (F := Ideal) (a5 m c)) p q
          + propAt hN (val_main_v30 (F := Ideal) (a1 m c) (a2 m c)) (val_main_v40 (F := Ideal) (a1 m c)) (val_main_v45 (F := Ideal) (a1 m c))
              (fun i : (⟨2, ![50000, 64]⟩ : Shape).Idx => mm (val_main_v54 (F := Ideal) (a0 m c) (a1 m c) (a2 m c) (a3 m c) (a4 m c)) (val_main_v72 (F := Ideal) (a5 m c)) (rowOf i) (colOf i)) p q)
        + a6 m c (ix1 q) := by
  rw [w10_v76, fin_ix2]
  have e58 : V9 m ρ c main_v58 (ix2 p q) = _ := w9_v58 m ρ c p q
  have e74 : V9 m ρ c main_v74 (ix2 p q) = _ := w9_v74 m ρ c p q
  have e75 : V9 m ρ c main_v75 (ix2 (0 : Fin 1) q) = _ := w9_v75 m ρ c q
  rw [e58, e74, e75]

end Cert.KernelIdeal.KVal

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.LibAllFinite.lean ====
/-
  A printed "all entries finite" test read back over the extended reals.

  A program tests an array for finiteness by comparing the absolute value of every entry with `+∞` and folding the
  one-bit answers by `and` over all axes into one bit. At the ideal instance a float is an extended real, so if that
  bit is 1 every comparison is 1 and every entry is a real number. The array of `+∞` may be any array whose every
  entry is the word 0x7F800000 (a broadcast constant). Nothing here mentions a program.
-/
import proofs.«137467_j84954453114994_2_alg».proof.Proof.LibFinite
import Idealize.ShloMosaic.Lib.ReduceAll

noncomputable section

namespace Cert.Lib.AllFinite

open Idealize.ShloMosaic

/-- An array `A` of any shape is compared entry by entry, `|A i| < top i`, against an array `top` whose every entry is
    `+∞`, and the answers are folded by `and` over the reduced axes into a result of one index. If the fold is 1,
    every comparison is 1, so every entry of `A` is a real number. -/
theorem real_of_all_abs_lt_top {s t u : Shape} [Subsingleton t.Idx] {axes : List (Fin s.rank)}
    (A top : FVec Ideal s .f32) (htop : ∀ i, top i = Ideal.ofBits .f32 0x7F800000#32)
    (init : IVec u 1) (h : s.ReducesTo axes t) (hu : 0 < u.numel) (j : t.Idx)
    (e : Host.reduce IntOp.andi (cmpf .olt (Host.absf A) top) init h hu j = 1#1) :
    ∀ i, ∃ r : ℝ, A i = (r : EReal) := by
  intro i
  have hi : cmpf .olt (Host.absf A) top i = 1#1 := Host.reduce_andi_all _ init h hu j e i
  refine Cert.Lib.Finite.real_of_cmp (A i) ?_
  rw [← htop i]
  exact hi

end Cert.Lib.AllFinite

end
-- ==== Proof.FinArgs.lean ====
/-
  The precondition read back: every float argument is an array of real numbers.

  The precondition is the conjunction of six tests, one per float argument, each asking that the absolute value of every
  entry be below +∞. At the ideal instance a float is an extended real, so each test being true says that every entry of
  that argument is a real number.
-/
import proofs.«137467_j84954453114994_2_alg».proof.Defs
import proofs.«137467_j84954453114994_2_alg».proof.Proof.Gen.Pre_finite_inputs
import proofs.«137467_j84954453114994_2_alg».proof.Proof.LibAllFinite
import proofs.«137467_j84954453114994_2_alg».proof.Proof.LibRealClosed
import proofs.«137467_j84954453114994_2_alg».proof.Proof.LibHostRead

noncomputable section

namespace Cert.Fin

open Idealize.ShloMosaic Idealize.SL.Sem Cert.Lib.RealClosed

/-- One test of the precondition, over an array of any shape: the absolute value of every entry is compared with a
    broadcast +∞ and the answers are folded by `and` into a single bit. If that bit is 1 every entry is a real. -/
theorem real_of_test {s : Shape} {axes : List (Fin s.rank)} (A : FVec Ideal s .f32)
    (hb : (⟨0, ![]⟩ : Shape).BroadcastsInDim s ![]) (h : s.ReducesTo axes ⟨0, ![]⟩)
    (hu : 0 < (⟨0, ![]⟩ : Shape).numel)
    (e : Host.reduce IntOp.andi
          (cmpf .olt (Host.absf A) (broadcastInDim s ![] hb (constant ⟨0, ![]⟩ .f32 0x7F800000#32)))
          (constantI ⟨0, ![]⟩ 1 1#1) h hu ValueIdx.ix0 = 1#1) :
    ∀ i, IsReal (A i) :=
  Cert.Lib.AllFinite.real_of_all_abs_lt_top A _ (fun i => HostRead.splat_at hb _ i) _ h hu ValueIdx.ix0 e

/-- The conjunction of two one-bit scalars is 1 exactly when both are. -/
theorem and_split (a b : IVec (⟨0, ![]⟩ : Shape) 1) (e : andi a b ValueIdx.ix0 = 1#1) :
    a ValueIdx.ix0 = 1#1 ∧ b ValueIdx.ix0 = 1#1 :=
  IntOp.andi_eq_one.1 e

/-- Under the precondition every float argument of the kernel holds real numbers, on every device: the precondition's
    value is the conjunction of the six tests, so each test is 1. -/
theorem args_real (m : (ℓ : Loc Cert.KernelIdeal.nD Cert.KernelIdeal.τ Cert.KernelIdeal.sig) → Buf (Elt Ideal) ℓ)
    (hPre : Cert.Pre_KernelIdeal (hPre_finite_inputs := Cert.Pre_finite_inputs.Gen.facts) m)
    (c : Dev Cert.KernelIdeal.nD) :
      (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i)) := by
  have h := congrFun (hPre c) ValueIdx.ix0
  dsimp only [Cert.Pre_finite_inputs.fn, Cert.Pre_finite_inputs.fn_part1] at h
  obtain ⟨h, h6⟩ := and_split _ _ h
  obtain ⟨h, h5⟩ := and_split _ _ h
  obtain ⟨h, h4⟩ := and_split _ _ h
  obtain ⟨h, h3⟩ := and_split _ _ h
  obtain ⟨h0, h2⟩ := and_split _ _ h
  exact ⟨real_of_test _ _ _ _ h0, real_of_test _ _ _ _ h2, real_of_test _ _ _ _ h3, real_of_test _ _ _ _ h4,
    real_of_test _ _ _ _ h5, real_of_test _ _ _ _ h6⟩

end Cert.Fin

end
-- ==== Proof.LibClampedDegree.lean ====
/-
  A clamped count of edges and its reciprocal, on the extended reals.

  `clamped_count_real`    a sum of ones over any finite set, started from zero and clamped below by one, is a real
                          number other than zero;
  `splat_apply`           a scalar f32 constant spread over any shape by a broadcast with no dimensions reads as the
                          constant at every index;
  `clamped_degree_real`   the host's accumulating scatter of an all-ones update array into an all-zeros operand,
                          clamped below by an all-ones array, read at an index, is a real number other than zero (any
                          shapes and dimension numbers: it is the count of the updates that land on the index);
  `mul_recip_eq_div`      for a real `r` other than zero, `x · (1 / r) = x / r` for every extended real `x`, the
                          infinities included (a mean computed by a reciprocal against one computed by a quotient).
-/
import Idealize.ShloMosaic.PureOps.Ideal
import Idealize.ShloMosaic.PureOps.Ideal.Laws
import Idealize.ShloMosaic.Lib.IdealHost
import Idealize.ShloMosaic.Lib.Pipeline.Value

noncomputable section

open scoped BigOperators

namespace Cert.LibClampedDegree

open Idealize.ShloMosaic

/-- Multiplying by the reciprocal of a real other than zero is dividing by it, at the infinities too. -/
theorem mul_recip_eq_div (x : EReal) {r : ℝ} (hr : r ≠ 0) :
    x * Ideal.div (Ideal.ofBits .f32 0x3F800000#32) (r : EReal) = Ideal.div x (r : EReal) := by
  rw [Ideal.ofBits_one_f32, Ideal.div_coe hr, Ideal.div_coe hr, one_mul]

/-- A count of ones started from zero and clamped below by one is a real number other than zero. -/
theorem clamped_count_real {ι : Type} (s : Finset ι) :
    ∃ r : ℝ, r ≠ 0 ∧ max (Ideal.ofBits .f32 0x00000000#32 + ∑ _j ∈ s, Ideal.ofBits .f32 0x3F800000#32)
      (Ideal.ofBits .f32 0x3F800000#32) = (r : EReal) := by
  refine ⟨max (s.card : ℝ) 1, ne_of_gt (lt_of_lt_of_le one_pos (le_max_right _ _)), ?_⟩
  rw [Ideal.ofBits_one_f32, Ideal.ofBits_zero_f32, zero_add, Finset.sum_const, EReal.nsmul_eq_mul, mul_one]
  rw [show ((s.card : ℕ) : EReal) = ((s.card : ℝ) : EReal) by norm_cast]
  rw [← EReal.coe_one]
  exact (EReal.coe_strictMono.monotone.map_max).symm

/-- A scalar constant spread over any shape reads as the constant at every index. -/
theorem splat_apply {t : Shape} (h : (⟨0, ![]⟩ : Shape).BroadcastsInDim t ![]) (b : BitVec 32) (i : t.Idx) :
    broadcastInDim t ![] h (constant (F := Ideal) ⟨0, ![]⟩ .f32 b) i = Ideal.ofBits .f32 b :=
  (broadcastInDim_apply ![] h (constant (F := Ideal) ⟨0, ![]⟩ .f32 b) i (fun a => a.elim0) (fun a => a.elim0)).trans rfl

/-- The count of the updates landing on an index, started from zero and clamped below by one, is a real number
    other than zero. -/
theorem clamped_degree_real {s si su : Shape} {w : Nat} (d : ScatterDims s si su) (idx : IVec si w)
    (hs : (⟨0, ![]⟩ : Shape).BroadcastsInDim s ![]) (hu : (⟨0, ![]⟩ : Shape).BroadcastsInDim su ![]) (i : s.Idx) :
    ∃ r : ℝ, r ≠ 0 ∧
      maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i = (r : EReal) := by
  have h : maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i
      = max (Ideal.ofBits .f32 0x00000000#32 + ∑ _j ∈ Finset.univ.filter (fun j => d.resultIdx? j idx = some i), Ideal.ofBits .f32 0x3F800000#32)
          (Ideal.ofBits .f32 0x3F800000#32) := by
    show max (Ideal.hostScatterAdd d _ idx _ i) _ = _
    unfold Ideal.hostScatterAdd
    simp only [splat_apply]
  rw [h]
  exact clamped_count_real _

end Cert.LibClampedDegree

end
-- ==== Proof.LibDegreeFactor.lean ====
/-
  The reciprocal square root of a clamped count of edges, on the extended reals.

  A count of ones over a finite set, started from zero and clamped below by one, is a real number that is at least one, so
  its reciprocal square root is a real number: the degree factor of a node is never an infinity, whatever the edges are.

  `clamped_count_pos`    the clamped count is a positive real;
  `clamped_degree_pos`   the host's accumulating scatter of an all-ones update array into an all-zeros operand, clamped
                         below by an all-ones array, read at an index, is a positive real (any shapes and dimension numbers);
  `rsqrt_real_of_pos`    the reciprocal square root of a positive real is a real;
  `degree_factor_real`   the reciprocal square root of the clamped count at an index is a real.
-/
import proofs.«137467_j84954453114994_2_alg».proof.Proof.LibClampedDegree
import proofs.«137467_j84954453114994_2_alg».proof.Proof.LibRealClosed

noncomputable section

open scoped BigOperators

namespace Cert.LibDegreeFactor

open Idealize.ShloMosaic Cert.LibClampedDegree Cert.Lib.RealClosed

/-- A count of ones started from zero and clamped below by one is a positive real. -/
theorem clamped_count_pos {ι : Type} (s : Finset ι) :
    ∃ r : ℝ, 0 < r ∧ max (Ideal.ofBits .f32 0x00000000#32 + ∑ _j ∈ s, Ideal.ofBits .f32 0x3F800000#32)
      (Ideal.ofBits .f32 0x3F800000#32) = (r : EReal) := by
  refine ⟨max (s.card : ℝ) 1, lt_of_lt_of_le one_pos (le_max_right _ _), ?_⟩
  rw [Ideal.ofBits_one_f32, Ideal.ofBits_zero_f32, zero_add, Finset.sum_const, EReal.nsmul_eq_mul, mul_one]
  rw [show ((s.card : ℕ) : EReal) = ((s.card : ℝ) : EReal) by norm_cast]
  rw [← EReal.coe_one]
  exact (EReal.coe_strictMono.monotone.map_max).symm

/-- The count of the updates landing on an index, started from zero and clamped below by one, is a positive real. -/
theorem clamped_degree_pos {s si su : Shape} {w : Nat} (d : ScatterDims s si su) (idx : IVec si w)
    (hs : (⟨0, ![]⟩ : Shape).BroadcastsInDim s ![]) (hu : (⟨0, ![]⟩ : Shape).BroadcastsInDim su ![]) (i : s.Idx) :
    ∃ r : ℝ, 0 < r ∧
      maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i = (r : EReal) := by
  have h : maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i
      = max (Ideal.ofBits .f32 0x00000000#32 + ∑ _j ∈ Finset.univ.filter (fun j => d.resultIdx? j idx = some i), Ideal.ofBits .f32 0x3F800000#32)
          (Ideal.ofBits .f32 0x3F800000#32) := by
    show max (Ideal.hostScatterAdd d _ idx _ i) _ = _
    unfold Ideal.hostScatterAdd
    simp only [splat_apply]
  rw [h]
  exact clamped_count_pos _

/-- The reciprocal square root of a positive real is a real. -/
theorem rsqrt_real_of_pos {r : ℝ} (hr : 0 < r) : IsReal (Ideal.rsqrt (r : EReal)) := by
  refine ⟨(Real.sqrt r)⁻¹, ?_⟩
  rw [Ideal.rsqrt_coe, if_neg (not_lt.2 hr.le), if_neg hr.ne']

/-- The degree factor of a node: the reciprocal square root of its clamped count of edges is a real. -/
theorem degree_factor_real {s si su : Shape} {w : Nat} (d : ScatterDims s si su) (idx : IVec si w)
    (hs : (⟨0, ![]⟩ : Shape).BroadcastsInDim s ![]) (hu : (⟨0, ![]⟩ : Shape).BroadcastsInDim su ![]) (i : s.Idx) :
    IsReal (Ideal.rsqrt (maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i)) := by
  obtain ⟨r, hr, e⟩ := clamped_degree_pos d idx hs hu i
  rw [e]
  exact rsqrt_real_of_pos hr

end Cert.LibDegreeFactor

end
-- ==== Proof.FinNorm.lean ====
/-
  The edge normalisation of the reference is an array of real numbers whenever the edge weights are.

  The reference computes, for an edge e from src e to dst e with weight w e,
      norm e = (−dinv (src e) · w e) · dinv (dst e),
  where deg p is the sum of the weights of the edges whose source is p (an accumulating scatter into zeros) and
  dinv p = 1/√(deg p) where deg p > 0 and 0 elsewhere. If every weight is a real number then deg p is a finite sum of
  reals, a real; where it is positive its reciprocal square root is a real, and elsewhere dinv p is 0; an entry gathered
  from an array of reals is a real; and negation and products of reals are reals. So norm e is a real, whatever the edge
  indices are.
-/
import proofs.«137467_j84954453114994_2_alg».proof.Proof.Gen.ReferenceIdeal.Read
import proofs.«137467_j84954453114994_2_alg».proof.Proof.LibScatterSum
import proofs.«137467_j84954453114994_2_alg».proof.Proof.LibGatherRows
import proofs.«137467_j84954453114994_2_alg».proof.Proof.LibDegreeFactor
import proofs.«137467_j84954453114994_2_alg».proof.Proof.LibRealClosed

noncomputable section

namespace Cert.Fin

open Idealize.ShloMosaic Idealize.ShloMosaic.ValueIdx Cert.Lib Cert.Lib.RealClosed Cert.LibDegreeFactor
open Cert.ReferenceIdeal Cert.ReferenceIdeal.Read

/-! ## Scalars -/

/-- The negative of a real is a real. -/
theorem isReal_neg {a : EReal} (ha : IsReal a) : IsReal (-a) := by
  obtain ⟨x, rfl⟩ := ha
  exact ⟨-x, (EReal.coe_neg x).symm⟩

/-- The comparison "greater than zero" of a positive real is the bit 1. -/
theorem cmp_ogt_zero_of_pos {r : ℝ} (h : 0 < r) : Ideal.cmp .ogt (r : EReal) 0 = 1#1 := by
  have h' : (0 : EReal) < (r : EReal) := EReal.coe_pos.2 h
  unfold Ideal.cmp
  simp [h, h']

/-- The comparison "greater than zero" of a real that is not positive is the bit 0. -/
theorem cmp_ogt_zero_of_not_pos {r : ℝ} (h : ¬ 0 < r) : Ideal.cmp .ogt (r : EReal) 0 = 0#1 := by
  have h' : ¬ (0 : EReal) < (r : EReal) := fun x => h (EReal.coe_pos.1 x)
  unfold Ideal.cmp
  simp [h, h']

/-- The degree factor of a real degree d: the reciprocal square root of d where d > 0 (there the inner selection, which
    guards the root against a degree that is not positive, is d itself), and the given real elsewhere. -/
theorem factor_real (d z z' one zero : EReal) (hd : IsReal d) (hz : z = 0) (hz' : z' = 0) (hzero : IsReal zero) :
    IsReal (Scalar.select (Ideal.cmp .ogt d z') (Ideal.rsqrt (Scalar.select (Ideal.cmp .ogt d z) d one)) zero) := by
  obtain ⟨r, rfl⟩ := hd
  subst hz hz'
  by_cases h : 0 < r
  · rw [cmp_ogt_zero_of_pos h, select_one, select_one]
    exact rsqrt_real_of_pos h
  · rw [cmp_ogt_zero_of_not_pos h, select_zero]
    exact hzero

/-- Zero plus a finite sum of reals is a real. -/
theorem zero_add_sum_real {ι : Type} (z : EReal) (hz : z = 0) (s : Finset ι) (f : ι → EReal) (hf : ∀ k, IsReal (f k)) :
    IsReal (z + ∑ k ∈ s, f k) := by
  subst hz
  exact isReal_zero.add (isReal_sum s f fun k _ => hf k)

/-- The negative of a real times a real times a real is a real. -/
theorem neg_mul_mul_real {a c b : EReal} (ha : IsReal a) (hc : IsReal c) (hb : IsReal b) : IsReal (-a * c * b) :=
  ((isReal_neg ha).mul hc).mul hb

/-! ## The dimension numbers of the reference's scatter and gather -/

theorem isVecScatter : IsVecScatter (N := 50000) (M := 800000) scatter_S50000_S800000x1_S800000_n_0_0_1 :=
  ⟨rfl, rfl, rfl, rfl⟩

theorem isVecGather : IsVecGather (N := 50000) (M := 800000) gather_S50000_S800000x1_S800000_n_0_n_n_0_1_1 :=
  ⟨rfl, rfl, rfl, rfl, rfl, rfl, rfl⟩

/-! ## The constants -/

theorem v4_zero (i : S50000.Idx) : val_main_v4 (F := Ideal) i = (0 : EReal) := by
  rw [val_main_v4_apply, val_main_cst_apply]
  exact Ideal.ofBits_zero_f32

theorem v7_zero (i : S50000.Idx) : val_main_v7 (F := Ideal) i = (0 : EReal) := by
  rw [val_main_v7_apply, val_main_cst_0_apply]
  exact Ideal.ofBits_zero_f32

theorem v10_zero (i : S50000.Idx) : val_main_v10 (F := Ideal) i = (0 : EReal) := by
  rw [val_main_v10_apply, val_main_cst_2_apply]
  exact Ideal.ofBits_zero_f32

theorem call1_zero (i : S50000.Idx) : val_main_call1_v1 (F := Ideal) i = (0 : EReal) := by
  rw [val_main_call1_v1_apply, val_main_call1_v0_apply, val_main_cst_3_apply]
  exact Ideal.ofBits_zero_f32

/-! ## The degree, the degree factor, the normalisation -/

variable (ei : (⟨Cert.ReferenceIdeal.S2x800000, .i32⟩ : BufTy).Contents (Elt Ideal))
  (ew : (⟨Cert.ReferenceIdeal.S800000, .f32⟩ : BufTy).Contents (Elt Ideal))

/-- The degree of a node is zero plus a finite sum of weights: a real. -/
theorem deg_real (hw : ∀ i, IsReal (ew i)) (p : Fin 50000) : IsReal (val_main_v6 (F := Ideal) ei ew (ix1 p)) := by
  have e := vecScatterAdd_apply (φ := .f32) scatter_S50000_S800000x1_S800000_n_0_0_1 isVecScatter
    (val_main_v4 (F := Ideal)) (val_main_v5 (F := Ideal) ei) ew p
  unfold val_main_v6
  refine (congrArg IsReal e).mpr ?_
  exact zero_add_sum_real _ (v4_zero _) _ _ (fun r => hw _)

/-- The degree factor of every node is a real. -/
theorem dinv_real (hw : ∀ i, IsReal (ew i)) : ∀ i, IsReal (val_main_v13 (F := Ideal) ei ew i) := by
  intro i
  obtain ⟨p, rfl⟩ : ∃ p : Fin 50000, i = ix1 p := ⟨i 0, eq_ix1 i⟩
  have hd := deg_real ei ew hw p
  have h7 := v7_zero (ix1 p)
  have h10 := v10_zero (ix1 p)
  have h1 := call1_zero (ix1 p)
  rw [val_main_v13_apply, val_main_v11_apply, val_main_v12_apply, val_main_v9_apply, val_main_v8_apply]
  generalize val_main_v6 (F := Ideal) ei ew (ix1 p) = d at hd ⊢
  generalize val_main_v7 (F := Ideal) (ix1 p) = z at h7 ⊢
  generalize val_main_v10 (F := Ideal) (ix1 p) = z' at h10 ⊢
  generalize val_main_call1_v1 (F := Ideal) (ix1 p) = zero at h1 ⊢
  generalize val_main_call0_v1 (F := Ideal) (ix1 p) = one
  exact factor_real d z z' one zero hd h7 h10 ⟨0, h1.trans EReal.coe_zero.symm⟩

/-- An entry gathered from the degree factors, whatever the index array, is a real. -/
theorem gathered_real (hw : ∀ i, IsReal (ew i)) (idx : (⟨S800000x1, .i32⟩ : BufTy).Contents (Elt Ideal)) (e : Fin 800000) :
    IsReal (Host.gather gather_S50000_S800000x1_S800000_n_0_n_n_0_1_1 (val_main_v13 (F := Ideal) ei ew) idx (ix1 e)) := by
  have g := vec_gather_apply (N := 50000) (M := 800000) (w := 32) (by norm_num) gather_S50000_S800000x1_S800000_n_0_n_n_0_1_1
    isVecGather (val_main_v13 (F := Ideal) ei ew) idx e
  refine (congrArg IsReal g).mpr ?_
  exact dinv_real ei ew hw _

/-- The normalisation of every edge is a real. -/
theorem norm_real (hw : ∀ i, IsReal (ew i)) : ∀ e, IsReal (val_main_v30 (F := Ideal) ei ew e) := by
  intro i
  obtain ⟨e, rfl⟩ : ∃ e : Fin 800000, i = ix1 e := ⟨i 0, eq_ix1 i⟩
  have h20 : IsReal (val_main_v20 (F := Ideal) ei ew (ix1 e)) := by
    unfold val_main_v20
    exact gathered_real ei ew hw (val_main_v19 (F := Ideal) ei) e
  have h29 : IsReal (val_main_v29 (F := Ideal) ei ew (ix1 e)) := by
    unfold val_main_v29
    exact gathered_real ei ew hw (val_main_v28 (F := Ideal) ei) e
  have hc := hw (ix1 e)
  rw [val_main_v30_apply, val_main_v22_apply, val_main_v21_apply]
  generalize val_main_v20 (F := Ideal) ei ew (ix1 e) = a at h20 ⊢
  generalize val_main_v29 (F := Ideal) ei ew (ix1 e) = b at h29 ⊢
  generalize ew (ix1 e) = c at hc ⊢
  exact neg_mul_mul_real h20 hc h29

end Cert.Fin

end
-- ==== Proof.Bridge.lean ====
/-
  The two idealized programs compute one function of the argument arrays.

  Kernel:    out(p, q) = (h · W2₀)(p, q) + prop(h · W2₁)(p, q) + b2 q.
  Reference: out(p, q) = (h · W2₀)(p, q) + (prop(h) · W2₁)(p, q) + b2 q,
  with the same hidden layer h, the same edge weights and the same index words on both sides. The two differ only in
  whether the propagation along the edges comes before or after the product with W2₁:
      prop(h · W)(p, q) = ∑ over edges e into p of n e · (∑ k, h (src e, k) · W (k, q))
      (prop(h) · W)(p, q) = ∑ k, (∑ over edges e into p of n e · h (src e, k)) · W (k, q).
  These agree by distributivity and an exchange of the two finite sums — laws that hold on the extended reals only away
  from the infinities. The precondition makes every float input a real; the edge weights n are then reals (a degree is
  a finite sum of reals, its reciprocal square root is taken only where it is positive), and so is every entry of h
  (finite sums, products and a maximum of reals).
-/
import proofs.«137467_j84954453114994_2_alg».proof.Proof.KHostC
import proofs.«137467_j84954453114994_2_alg».proof.Proof.RefValue
import proofs.«137467_j84954453114994_2_alg».proof.Proof.FinArgs
import proofs.«137467_j84954453114994_2_alg».proof.Proof.FinNorm

set_option maxRecDepth 16384

noncomputable section

open scoped BigOperators

namespace Cert.Bridge

open Cert.ReferenceIdeal.Read Cert.Spec Cert.Lib Cert.Lib.RealClosed Cert.RefValue
open Idealize.ShloMosaic Idealize.ShloMosaic.TcCoe Idealize.ShloMosaic.ValueIdx Idealize.SL.Sem

section Reals

variable (x0 : (⟨Cert.ReferenceIdeal.S50000x128, .f32⟩ : BufTy).Contents (Elt Ideal))
  (ei : (⟨Cert.ReferenceIdeal.S2x800000, .i32⟩ : BufTy).Contents (Elt Ideal))
  (ew : (⟨Cert.ReferenceIdeal.S800000, .f32⟩ : BufTy).Contents (Elt Ideal))
  (x3 : (⟨Cert.ReferenceIdeal.S2x128x128, .f32⟩ : BufTy).Contents (Elt Ideal))
  (x4 : (⟨Cert.ReferenceIdeal.S128, .f32⟩ : BufTy).Contents (Elt Ideal))
  (x5 : (⟨Cert.ReferenceIdeal.S2x128x64, .f32⟩ : BufTy).Contents (Elt Ideal))

/-- The slices of the weight arrays are made of entries of the weight arrays. -/
theorem v32_real (h3 : ∀ i, IsReal (x3 i)) (i) : IsReal (val_main_v32 (F := Ideal) x3 i) := by
  rw [val_main_v32_apply, val_main_v31_apply]; exact h3 _
theorem v48_real (h3 : ∀ i, IsReal (x3 i)) (i) : IsReal (val_main_v48 (F := Ideal) x3 i) := by
  rw [val_main_v48_apply, val_main_v47_apply]; exact h3 _
theorem v72_real (h5 : ∀ i, IsReal (x5 i)) (i) : IsReal (val_main_v72 (F := Ideal) x5 i) := by
  rw [val_main_v72_apply, val_main_v71_apply]; exact h5 _

/-- The propagated x is real. -/
theorem v46_real (h0 : ∀ i, IsReal (x0 i)) (hn : ∀ r, IsReal (NRM ei ew r)) (i) :
    IsReal (val_main_v46 (F := Ideal) x0 ei ew i) := by
  obtain ⟨p, k, rfl⟩ : ∃ (p : Fin 50000) (k : Fin 128), i = ix2 p k := ⟨i 0, i 1, eq_ix2 i⟩
  rw [prop1_at]
  exact propAt_real _ _ _ _ _ hn h0 p k

/-- The hidden layer is real. -/
theorem h_real (h0 : ∀ i, IsReal (x0 i)) (hn : ∀ r, IsReal (NRM ei ew r)) (h3 : ∀ i, IsReal (x3 i))
    (h4 : ∀ i, IsReal (x4 i)) (i) : IsReal (val_main_v54 (F := Ideal) x0 ei ew x3 x4 i) := by
  obtain ⟨p, j, rfl⟩ : ∃ (p : Fin 50000) (j : Fin 128), i = ix2 p j := ⟨i 0, i 1, eq_ix2 i⟩
  rw [h_at]
  refine isReal_max (((mm_real _ _ h0 (v32_real x3 h3) p j).add
    (mm_real _ _ (v46_real x0 ei ew h0 hn) (v48_real x3 h3) p j)).add (h4 _)) ?_
  rw [zeroW_eq]; exact isReal_zero

/-- Propagating h · W2₁ is propagating h and then multiplying by W2₁. -/
theorem prop_proj_eq (h0 : ∀ i, IsReal (x0 i)) (hn : ∀ r, IsReal (NRM ei ew r)) (h3 : ∀ i, IsReal (x3 i))
    (h4 : ∀ i, IsReal (x4 i)) (h5 : ∀ i, IsReal (x5 i)) (p : Fin 50000) (q : Fin 64) :
    propAt hN (NRM ei ew) (SIDX ei) (DIDX ei)
        (fun i : (⟨2, ![50000, 64]⟩ : Shape).Idx =>
          mm (val_main_v54 (F := Ideal) x0 ei ew x3 x4) (val_main_v72 (F := Ideal) x5) (rowOf i) (colOf i)) p q
      = mm (val_main_v70 (F := Ideal) x0 ei ew x3 x4) (val_main_v72 (F := Ideal) x5) p q := by
  rw [propAt_matmul hN (NRM ei ew) (SIDX ei) (DIDX ei) (val_main_v54 (F := Ideal) x0 ei ew x3 x4)
    (val_main_v72 (F := Ideal) x5) hn (h_real x0 ei ew x3 x4 h0 hn h3 h4) (v72_real x5 h5) p q]
  unfold mm
  refine Finset.sum_congr rfl fun k _ => ?_
  rw [prop2_at]

end Reals

open Cert.KernelIdeal Cert.KernelIdeal.Gen Cert.KernelIdeal.KVal

/-- Under the precondition the kernel program's result array is the reference's result, as one function of the
    argument arrays. -/
theorem result_eq (m : (ℓ : Loc nD τ sig) → Buf (Elt Ideal) ℓ) (ρ : Dev nD → PrngReg) (c : Dev nD)
    (hPre : Cert.Pre_KernelIdeal (hPre_finite_inputs := Cert.Pre_finite_inputs.Gen.facts) m) :
    W10 m ρ c (Proc.devRef .tc main_v76)
      = val_main_v77 (F := Ideal) (a0 m c) (a1 m c) (a2 m c) (a3 m c) (a4 m c) (a5 m c) (a6 m c) := by
  obtain ⟨r0, r2, r3, r4, r5, r6⟩ := Cert.Fin.args_real m hPre c
  have hn : ∀ r, IsReal (NRM (a1 m c) (a2 m c) r) := Cert.Fin.norm_real (a1 m c) (a2 m c) r2
  funext i
  obtain ⟨p, q, rfl⟩ : ∃ (p : Fin 50000) (q : Fin 64), i = ix2 p q := ⟨i 0, i 1, eq_ix2 i⟩
  rw [Cert.KernelIdeal.KVal.out_at, Cert.RefValue.out_at]
  rw [prop_proj_eq (a0 m c) (a1 m c) (a2 m c) (a3 m c) (a4 m c) (a5 m c) r0 hn r3 r4 r5 p q]

end Cert.Bridge

end
-- ==== Proof.lean ====
/-
  The certificate: the kernel program and its idealization run and leave their arguments unchanged, the idealization
  rewrote nothing, and at the ideal instance the idealized kernel program and the idealized reference end with equal
  results.

  Both programs are a two-layer graph convolution  out = h · W2₀ + prop(h) · W2₁ + b2,  h = max (x · W1₀ + prop(x) · W1₁ + b1, 0),
  where prop(g)(p, ·) = ∑ over the edges e into node p of n e · g(src e, ·) and n is the symmetric normalisation of the
  edge weights. The kernel program computes the second layer as  (h · W2₀) + prop(h · W2₁) + b2 : it multiplies first and
  propagates the narrower product. The two agree because prop is linear in its rows, which on the extended reals needs
  every number involved to be a real: that is what the precondition (all float inputs finite) provides, through the
  edge normalisation and the first layer (Proof/Bridge.lean). The frames of the two kernel programs and the reference's
  run are the generated ones; the kernel program's result array is read off its run region by region
  (Proof/KRun.lean, Proof/KRegion0.lean – KRegion2.lean, Proof/KHostA.lean, Proof/KHostC.lean), the reference's off its
  generated run (Proof/RefValue.lean).
-/
import proofs.«137467_j84954453114994_2_alg».proof.Defs
import proofs.«137467_j84954453114994_2_alg».proof.Proof.Gen.Kernel
import proofs.«137467_j84954453114994_2_alg».proof.Proof.Gen.Kernel.Frame
import proofs.«137467_j84954453114994_2_alg».proof.Proof.Gen.KernelIdeal
import proofs.«137467_j84954453114994_2_alg».proof.Proof.Gen.KernelIdeal.Frame
import proofs.«137467_j84954453114994_2_alg».proof.Proof.Gen.ReferenceIdeal
import proofs.«137467_j84954453114994_2_alg».proof.Proof.Gen.Pre_finite_inputs
import proofs.«137467_j84954453114994_2_alg».proof.Proof.Gen.ReferenceIdeal.Run
import proofs.«137467_j84954453114994_2_alg».proof.Proof.Gen.ReferenceIdeal.Read
import proofs.«137467_j84954453114994_2_alg».proof.Proof.KRun
import proofs.«137467_j84954453114994_2_alg».proof.Proof.Bridge

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the reference's result function of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hPre hagree
  refine ⟨fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Bridge.result_eq m ρ c hPre), (h c).2⟩)
      (Cert.KernelIdeal.KVal.run_out (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v77_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
